-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel

variable [Facts]

def fn {F : FTy → Type} [FloatOps F] (main_arg0 : FVec F S8x3x512x512 .f32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  main_v3
-- ==== Kernel.lean ====
abbrev S8x3x512x512 : Shape := ⟨4, ![8, 3, 512, 512]⟩
abbrev S8x3x256x2x256x2 : Shape := ⟨6, ![8, 3, 256, 2, 256, 2]⟩
abbrev S8x3x2x2x256x256 : Shape := ⟨6, ![8, 3, 2, 2, 256, 256]⟩
abbrev S8x12x256x256 : Shape := ⟨4, ![8, 12, 256, 256]⟩
abbrev S_ : Shape := ⟨0, ![]⟩
abbrev S8x12x258x258 : Shape := ⟨4, ![8, 12, 258, 258]⟩
abbrev S1x3x512x512 : Shape := ⟨4, ![1, 3, 512, 512]⟩
abbrev S1x12x258x258 : Shape := ⟨4, ![1, 12, 258, 258]⟩
abbrev S12x258x258 : Shape := ⟨3, ![12, 258, 258]⟩
abbrev S258x258 : Shape := ⟨2, ![258, 258]⟩
abbrev S12x256x256 : Shape := ⟨3, ![12, 256, 256]⟩
abbrev S256x256 : Shape := ⟨2, ![256, 256]⟩
abbrev S1x256x256 : Shape := ⟨3, ![1, 256, 256]⟩
abbrev S2x256 : Shape := ⟨2, ![2, 256]⟩
abbrev S258x256 : Shape := ⟨2, ![258, 256]⟩
abbrev S258x2 : Shape := ⟨2, ![258, 2]⟩
abbrev S258x1 : Shape := ⟨2, ![258, 1]⟩
abbrev S258x257 : Shape := ⟨2, ![258, 257]⟩
abbrev S1x256 : Shape := ⟨2, ![1, 256]⟩
abbrev S257x256 : Shape := ⟨2, ![257, 256]⟩
abbrev S256x1x256x1 : Shape := ⟨4, ![256, 1, 256, 1]⟩
abbrev S256x2x256x2 : Shape := ⟨4, ![256, 2, 256, 2]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 8
  | .vmem => 6
  | .smem => 0
  | _ => 0

abbrev bufTy : (tb : Table) → Fin (tcTables nBuf tb) → BufTy
  | .hbm, ⟨0, _⟩ => ⟨S8x3x512x512, .f32⟩
  | .hbm, ⟨1, _⟩ => ⟨S8x3x256x2x256x2, .f32⟩
  | .hbm, ⟨2, _⟩ => ⟨S8x3x2x2x256x256, .f32⟩
  | .hbm, ⟨3, _⟩ => ⟨S8x12x256x256, .f32⟩
  | .hbm, ⟨4, _⟩ => ⟨S_, .i32⟩
  | .hbm, ⟨5, _⟩ => ⟨S_, .f32⟩
  | .hbm, ⟨6, _⟩ => ⟨S8x12x258x258, .f32⟩
  | .hbm, ⟨7, _⟩ => ⟨S8x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x12x258x258, .f32⟩
  | .local _ .vmem, ⟨3, _⟩ => ⟨S1x12x258x258, .f32⟩
  | .local _ .vmem, ⟨4, _⟩ => ⟨S1x3x512x512, .f32⟩
  | .local _ .vmem, ⟨5, _⟩ => ⟨S1x3x512x512, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x258x258 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x3x512x512_S8x3x256x2x256x2 : S8x3x512x512.ShapeCasts S8x3x256x2x256x2
  transposes_S8x3x256x2x256x2_S8x3x2x2x256x256_0_1_3_5_2_4 : S8x3x256x2x256x2.Transposes [0, 1, 3, 5, 2, 4] S8x3x2x2x256x256
  shapeCasts_S8x3x2x2x256x256_S8x12x256x256 : S8x3x2x2x256x256.ShapeCasts S8x12x256x256
  pads_S8x12x256x256_S8x12x258x258_000_000_110_110 : S8x12x256x256.Pads (![0, 0, 1, 1] : Fin 4 → Nat) ![0, 0, 1, 1] ![0, 0, 0, 0] S8x12x258x258
  h_S_ : 0 < S_.numel
  inb_S1x12x258x258_S1x12x258x258_0_0_0_0 : ∀ a, (![0, 0, 0, 0] : Fin 4 → Nat) a + S1x12x258x258.size a ≤ S1x12x258x258.size a
  h_S1x12x258x258 : 0 < S1x12x258x258.numel
  shapeCasts_S1x12x258x258_S12x258x258 : S1x12x258x258.ShapeCasts S12x258x258
  slices_S12x258x258_o0_0_0_S12x256x256 : S12x258x258.Slices ![0, 0, 0] S12x256x256
  reduces_S12x256x256_S256x256 : S12x256x256.Reduces [0] S256x256
  shapeCasts_S256x256_S1x256x256 : S256x256.ShapeCasts S1x256x256
  broadcasts_S1x256x256_S12x256x256 : S1x256x256.Broadcasts S12x256x256
  concatenates_S256x256_S2x256_S258x256_d0 : Shape.Concatenates [S256x256, S2x256] S258x256 0
  concatenates_S258x256_S258x2_S258x258_d1 : Shape.Concatenates [S258x256, S258x2] S258x258 1
  slices_S12x258x258_o0_0_1_S12x256x256 : S12x258x258.Slices ![0, 0, 1] S12x256x256
  concatenates_S258x1_S258x256_S258x257_d1 : Shape.Concatenates [S258x1, S258x256] S258x257 1
  concatenates_S258x257_S258x1_S258x258_d1 : Shape.Concatenates [S258x257, S258x1] S258x258 1
  slices_S12x258x258_o0_0_2_S12x256x256 : S12x258x258.Slices ![0, 0, 2] S12x256x256
  concatenates_S258x2_S258x256_S258x258_d1 : Shape.Concatenates [S258x2, S258x256] S258x258 1
  slices_S12x258x258_o0_1_0_S12x256x256 : S12x258x258.Slices ![0, 1, 0] S12x256x256
  concatenates_S1x256_S256x256_S257x256_d0 : Shape.Concatenates [S1x256, S256x256] S257x256 0
  concatenates_S257x256_S1x256_S258x256_d0 : Shape.Concatenates [S257x256, S1x256] S258x256 0
  slices_S12x258x258_o0_1_1_S12x256x256 : S12x258x258.Slices ![0, 1, 1] S12x256x256
  slices_S12x258x258_o0_1_2_S12x256x256 : S12x258x258.Slices ![0, 1, 2] S12x256x256
  slices_S12x258x258_o0_2_0_S12x256x256 : S12x258x258.Slices ![0, 2, 0] S12x256x256
  concatenates_S2x256_S256x256_S258x256_d0 : Shape.Concatenates [S2x256, S256x256] S258x256 0
  slices_S12x258x258_o0_2_1_S12x256x256 : S12x258x258.Slices ![0, 2, 1] S12x256x256
  slices_S12x258x258_o0_2_2_S12x256x256 : S12x258x258.Slices ![0, 2, 2] S12x256x256
  slices_S258x258_o1_1_S256x256 : S258x258.Slices ![1, 1] S256x256
  shapeCasts_S256x256_S256x1x256x1 : S256x256.ShapeCasts S256x1x256x1
  shapeCasts_S256x1x256x1_S256x1x256x1 : S256x1x256x1.ShapeCasts S256x1x256x1
  broadcasts_S256x1x256x1_S256x2x256x2 : S256x1x256x1.Broadcasts S256x2x256x2
  shapeCasts_S256x2x256x2_S512x512 : S256x2x256x2.ShapeCasts S512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  shapeCasts_S512x512_S1x512x512 : S512x512.ShapeCasts S1x512x512
  broadcasts_S1x512x512_S3x512x512 : S1x512x512.Broadcasts S3x512x512
  shapeCasts_S3x512x512_S1x3x512x512 : S3x512x512.ShapeCasts S1x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S8x3x512x512.size a
  hwx0_0 : ∀ i : grid0.Coords, EltTy.bits .f32 = 32 ∨ (Rect.block (s := S8x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12x258x258.size a ≤ S8x12x258x258.size a
  hwx0_1 : ∀ i : grid0.Coords, EltTy.bits .f32 = 32 ∨ (Rect.block (s := S8x12x258x258) S1x12x258x258.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S8x3x512x512.size a
  hwx0_2 : ∀ i : grid0.Coords, EltTy.bits .f32 = 32 ∨ (Rect.block (s := S8x3x512x512) S1x3x512x512.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x12x258x258.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x512x512 : Shape := ⟨4, ![8, 3, 512, 512]⟩
abbrev S8x3x256x2x256x2 : Shape := ⟨6, ![8, 3, 256, 2, 256, 2]⟩
abbrev S8x3x2x2x256x256 : Shape := ⟨6, ![8, 3, 2, 2, 256, 256]⟩
abbrev S8x12x256x256 : Shape := ⟨4, ![8, 12, 256, 256]⟩
abbrev S_ : Shape := ⟨0, ![]⟩
abbrev S8x12x258x258 : Shape := ⟨4, ![8, 12, 258, 258]⟩
abbrev S8x12x1x256x256 : Shape := ⟨5, ![8, 12, 1, 256, 256]⟩
abbrev S8x12x9x256x256 : Shape := ⟨5, ![8, 12, 9, 256, 256]⟩
abbrev S8x9x256x256 : Shape := ⟨4, ![8, 9, 256, 256]⟩
abbrev S8x1x9x256x256 : Shape := ⟨5, ![8, 1, 9, 256, 256]⟩
abbrev S8x258x258 : Shape := ⟨3, ![8, 258, 258]⟩
abbrev S8x1x256x256 : Shape := ⟨4, ![8, 1, 256, 256]⟩
abbrev S8x256x256 : Shape := ⟨3, ![8, 256, 256]⟩
abbrev S1 : Shape := ⟨1, ![1]⟩
abbrev S2 : Shape := ⟨1, ![2]⟩
abbrev S8x1x256x2x256 : Shape := ⟨5, ![8, 1, 256, 2, 256]⟩
abbrev S8x1x512x256 : Shape := ⟨4, ![8, 1, 512, 256]⟩
abbrev S8x1x512x256x2 : Shape := ⟨5, ![8, 1, 512, 256, 2]⟩
abbrev S8x1x512x512 : Shape := ⟨4, ![8, 1, 512, 512]⟩

abbrev nBuf : Space → Nat
  | .hbm => 140
  | .vmem => 0
  | .smem => 0
  | _ => 0

abbrev hbmTy0_0 (i : Nat) : BufTy := match i % 128 with
  | 0 => ⟨S8x3x512x512, .f32⟩
  | 1 => ⟨S8x3x256x2x256x2, .f32⟩
  | 2 => ⟨S8x3x2x2x256x256, .f32⟩
  | 3 => ⟨S8x12x256x256, .f32⟩
  | 4 => ⟨S_, .i32⟩
  | 5 => ⟨S_, .f32⟩
  | 6 => ⟨S8x12x258x258, .f32⟩
  | 7 => ⟨S8x12x256x256, .f32⟩
  | 8 => ⟨S8x12x256x256, .f32⟩
  | 9 => ⟨S8x12x256x256, .f32⟩
  | 10 => ⟨S8x12x256x256, .f32⟩
  | 11 => ⟨S8x12x256x256, .f32⟩
  | 12 => ⟨S8x12x256x256, .f32⟩
  | 13 => ⟨S8x12x256x256, .f32⟩
  | 14 => ⟨S8x12x256x256, .f32⟩
  | 15 => ⟨S8x12x256x256, .f32⟩
  | 16 => ⟨S8x12x1x256x256, .f32⟩
  | 17 => ⟨S8x12x1x256x256, .f32⟩
  | 18 => ⟨S8x12x1x256x256, .f32⟩
  | 19 => ⟨S8x12x1x256x256, .f32⟩
  | 20 => ⟨S8x12x1x256x256, .f32⟩
  | 21 => ⟨S8x12x1x256x256, .f32⟩
  | 22 => ⟨S8x12x1x256x256, .f32⟩
  | 23 => ⟨S8x12x1x256x256, .f32⟩
  | 24 => ⟨S8x12x1x256x256, .f32⟩
  | 25 => ⟨S8x12x9x256x256, .f32⟩
  | 26 => ⟨S_, .f32⟩
  | 27 => ⟨S8x9x256x256, .f32⟩
  | 28 => ⟨S_, .f32⟩
  | 29 => ⟨S8x9x256x256, .f32⟩
  | 30 => ⟨S8x9x256x256, .f32⟩
  | 31 => ⟨S8x1x9x256x256, .f32⟩
  | 32 => ⟨S8x12x9x256x256, .f32⟩
  | 33 => ⟨S8x12x9x256x256, .f32⟩
  | 34 => ⟨S8x12x9x256x256, .f32⟩
  | 35 => ⟨S_, .f32⟩
  | 36 => ⟨S8x9x256x256, .f32⟩
  | 37 => ⟨S8x1x9x256x256, .f32⟩
  | 38 => ⟨S8x12x9x256x256, .f32⟩
  | 39 => ⟨S8x12x9x256x256, .f32⟩
  | 40 => ⟨S8x12x9x256x256, .f32⟩
  | 41 => ⟨S_, .f32⟩
  | 42 => ⟨S8x9x256x256, .f32⟩
  | 43 => ⟨S_, .f32⟩
  | 44 => ⟨S8x258x258, .f32⟩
  | 45 => ⟨S8x1x256x256, .f32⟩
  | 46 => ⟨S8x256x256, .f32⟩
  | 47 => ⟨S_, .i32⟩
  | 48 => ⟨S1, .i32⟩
  | 49 => ⟨S_, .i32⟩
  | 50 => ⟨S1, .i32⟩
  | 51 => ⟨S2, .i32⟩
  | 52 => ⟨S8x258x258, .f32⟩
  | 53 => ⟨S8x1x256x256, .f32⟩
  | 54 => ⟨S8x256x256, .f32⟩
  | 55 => ⟨S_, .i32⟩
  | 56 => ⟨S1, .i32⟩
  | 57 => ⟨S_, .i32⟩
  | 58 => ⟨S1, .i32⟩
  | 59 => ⟨S2, .i32⟩
  | 60 => ⟨S8x258x258, .f32⟩
  | 61 => ⟨S8x1x256x256, .f32⟩
  | 62 => ⟨S8x256x256, .f32⟩
  | 63 => ⟨S_, .i32⟩
  | 64 => ⟨S1, .i32⟩
  | 65 => ⟨S_, .i32⟩
  | 66 => ⟨S1, .i32⟩
  | 67 => ⟨S2, .i32⟩
  | 68 => ⟨S8x258x258, .f32⟩
  | 69 => ⟨S8x1x256x256, .f32⟩
  | 70 => ⟨S8x256x256, .f32⟩
  | 71 => ⟨S_, .i32⟩
  | 72 => ⟨S1, .i32⟩
  | 73 => ⟨S_, .i32⟩
  | 74 => ⟨S1, .i32⟩
  | 75 => ⟨S2, .i32⟩
  | 76 => ⟨S8x258x258, .f32⟩
  | 77 => ⟨S8x1x256x256, .f32⟩
  | 78 => ⟨S8x256x256, .f32⟩
  | 79 => ⟨S_, .i32⟩
  | 80 => ⟨S1, .i32⟩
  | 81 => ⟨S_, .i32⟩
  | 82 => ⟨S1, .i32⟩
  | 83 => ⟨S2, .i32⟩
  | 84 => ⟨S8x258x258, .f32⟩
  | 85 => ⟨S8x1x256x256, .f32⟩
  | 86 => ⟨S8x256x256, .f32⟩
  | 87 => ⟨S_, .i32⟩
  | 88 => ⟨S1, .i32⟩
  | 89 => ⟨S_, .i32⟩
  | 90 => ⟨S1, .i32⟩
  | 91 => ⟨S2, .i32⟩
  | 92 => ⟨S8x258x258, .f32⟩
  | 93 => ⟨S8x1x256x256, .f32⟩
  | 94 => ⟨S8x256x256, .f32⟩
  | 95 => ⟨S_, .i32⟩
  | 96 => ⟨S1, .i32⟩
  | 97 => ⟨S_, .i32⟩
  | 98 => ⟨S1, .i32⟩
  | 99 => ⟨S2, .i32⟩
  | 100 => ⟨S8x258x258, .f32⟩
  | 101 => ⟨S8x1x256x256, .f32⟩
  | 102 => ⟨S8x256x256, .f32⟩
  | 103 => ⟨S_, .i32⟩
  | 104 => ⟨S1, .i32⟩
  | 105 => ⟨S_, .i32⟩
  | 106 => ⟨S1, .i32⟩
  | 107 => ⟨S2, .i32⟩
  | 108 => ⟨S8x258x258, .f32⟩
  | 109 => ⟨S8x1x256x256, .f32⟩
  | 110 => ⟨S8x256x256, .f32⟩
  | 111 => ⟨S_, .i32⟩
  | 112 => ⟨S1, .i32⟩
  | 113 => ⟨S_, .i32⟩
  | 114 => ⟨S1, .i32⟩
  | 115 => ⟨S2, .i32⟩
  | 116 => ⟨S8x258x258, .f32⟩
  | 117 => ⟨S8x256x256, .f32⟩
  | 118 => ⟨S8x1x256x256, .f32⟩
  | 119 => ⟨S8x1x256x2x256, .f32⟩
  | 120 => ⟨S8x1x512x256, .f32⟩
  | 121 => ⟨S8x1x512x256x2, .f32⟩
  | 122 => ⟨S8x1x512x512, .f32⟩
  | 123 => ⟨S8x1x512x512, .f32⟩
  | 124 => ⟨S8x1x512x512, .f32⟩
  | 125 => ⟨S_, .f32⟩
  | 126 => ⟨S8x1x512x512, .f32⟩
  | 127 => ⟨S8x1x512x512, .f32⟩
  | _ => ⟨S8x3x512x512, .f32⟩

abbrev hbmTy0_1 (i : Nat) : BufTy := match i % 128 with
  | 0 => ⟨S_, .f32⟩
  | 1 => ⟨S8x1x512x512, .f32⟩
  | 2 => ⟨S8x1x512x512, .f32⟩
  | 3 => ⟨S8x3x512x512, .f32⟩
  | 4 => ⟨S8x3x512x512, .f32⟩
  | 5 => ⟨S_, .f32⟩
  | 6 => ⟨S8x3x512x512, .f32⟩
  | 7 => ⟨S8x3x512x512, .f32⟩
  | 8 => ⟨S_, .f32⟩
  | 9 => ⟨S8x3x512x512, .f32⟩
  | 10 => ⟨S8x3x512x512, .f32⟩
  | 11 => ⟨S8x3x512x512, .f32⟩
  | _ => ⟨S8x3x512x512, .f32⟩

abbrev hbmTy (i : Nat) : BufTy := match i / 128 with
  | 0 => hbmTy0_0 i
  | 1 => hbmTy0_1 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_c_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_6 : Ref sig .tc := ⟨.hbm, 55, rfl⟩
abbrev main_v45 : Ref sig .tc := ⟨.hbm, 56, rfl⟩
abbrev main_c_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_8 : Ref sig .tc := ⟨.hbm, 63, rfl⟩
abbrev main_v51 : Ref sig .tc := ⟨.hbm, 64, rfl⟩
abbrev main_c_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_10 : Ref sig .tc := ⟨.hbm, 71, rfl⟩
abbrev main_v57 : Ref sig .tc := ⟨.hbm, 72, rfl⟩
abbrev main_c_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_12 : Ref sig .tc := ⟨.hbm, 79, rfl⟩
abbrev main_v63 : Ref sig .tc := ⟨.hbm, 80, rfl⟩
abbrev main_c_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_14 : Ref sig .tc := ⟨.hbm, 87, rfl⟩
abbrev main_v69 : Ref sig .tc := ⟨.hbm, 88, rfl⟩
abbrev main_c_15 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_16 : Ref sig .tc := ⟨.hbm, 95, rfl⟩
abbrev main_v75 : Ref sig .tc := ⟨.hbm, 96, rfl⟩
abbrev main_c_17 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_18 : Ref sig .tc := ⟨.hbm, 103, rfl⟩
abbrev main_v81 : Ref sig .tc := ⟨.hbm, 104, rfl⟩
abbrev main_c_19 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_20 : Ref sig .tc := ⟨.hbm, 111, rfl⟩
abbrev main_v87 : Ref sig .tc := ⟨.hbm, 112, rfl⟩
abbrev main_c_21 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_22 : Ref sig .tc := ⟨.hbm, 125, rfl⟩
abbrev main_v99 : Ref sig .tc := ⟨.hbm, 126, rfl⟩
abbrev main_v100 : Ref sig .tc := ⟨.hbm, 127, rfl⟩
abbrev main_cst_23 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_24 : Ref sig .tc := ⟨.hbm, 133, rfl⟩
abbrev main_v105 : Ref sig .tc := ⟨.hbm, 134, rfl⟩
abbrev main_v106 : Ref sig .tc := ⟨.hbm, 135, rfl⟩
abbrev main_cst_25 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]

class Facts₀ : Prop where
  shapeCasts_S8x3x512x512_S8x3x256x2x256x2 : S8x3x512x512.ShapeCasts S8x3x256x2x256x2
  transposes_S8x3x256x2x256x2_S8x3x2x2x256x256_0_1_3_5_2_4 : S8x3x256x2x256x2.Transposes [0, 1, 3, 5, 2, 4] S8x3x2x2x256x256
  shapeCasts_S8x3x2x2x256x256_S8x12x256x256 : S8x3x2x2x256x256.ShapeCasts S8x12x256x256
  pads_S8x12x256x256_S8x12x258x258_000_000_110_110 : S8x12x256x256.Pads (![0, 0, 1, 1] : Fin 4 → Nat) ![0, 0, 1, 1] ![0, 0, 0, 0] S8x12x258x258
  h_S_ : 0 < S_.numel
  slices_S8x12x258x258_S8x12x256x256_0_0_0_0 : S8x12x258x258.Slices ![0, 0, 0, 0] S8x12x256x256
  slices_S8x12x258x258_S8x12x256x256_0_0_0_1 : S8x12x258x258.Slices ![0, 0, 0, 1] S8x12x256x256
  slices_S8x12x258x258_S8x12x256x256_0_0_0_2 : S8x12x258x258.Slices ![0, 0, 0, 2] S8x12x256x256
  slices_S8x12x258x258_S8x12x256x256_0_0_1_0 : S8x12x258x258.Slices ![0, 0, 1, 0] S8x12x256x256
  slices_S8x12x258x258_S8x12x256x256_0_0_1_1 : S8x12x258x258.Slices ![0, 0, 1, 1] S8x12x256x256
  slices_S8x12x258x258_S8x12x256x256_0_0_1_2 : S8x12x258x258.Slices ![0, 0, 1, 2] S8x12x256x256
  slices_S8x12x258x258_S8x12x256x256_0_0_2_0 : S8x12x258x258.Slices ![0, 0, 2, 0] S8x12x256x256
  slices_S8x12x258x258_S8x12x256x256_0_0_2_1 : S8x12x258x258.Slices ![0, 0, 2, 1] S8x12x256x256
  slices_S8x12x258x258_S8x12x256x256_0_0_2_2 : S8x12x258x258.Slices ![0, 0, 2, 2] S8x12x256x256
  bcast_S8x12x256x256_S8x12x1x256x256_0_1_3_4 : S8x12x256x256.BroadcastsInDim S8x12x1x256x256 (![0, 1, 3, 4] : Fin 4 → Fin S8x12x1x256x256.rank)
  concatenates_S8x12x1x256x256_S8x12x1x256x256_S8x12x1x256x256_S8x12x1x256x256_S8x12x1x256x256_S8x12x1x256x256_S8x12x1x256x256_S8x12x1x256x256_S8x12x1x256x256_S8x12x9x256x256_d2 : Shape.Concatenates [S8x12x1x256x256, S8x12x1x256x256, S8x12x1x256x256, S8x12x1x256x256, S8x12x1x256x256, S8x12x1x256x256, S8x12x1x256x256, S8x12x1x256x256, S8x12x1x256x256] S8x12x9x256x256 2
  reducesTo_S8x12x9x256x256_S8x9x256x256_d1 : S8x12x9x256x256.ReducesTo [1] S8x9x256x256
  bcast_S_S8x9x256x256 : S_.BroadcastsInDim S8x9x256x256 (![] : Fin 0 → Fin S8x9x256x256.rank)
  bcast_S8x9x256x256_S8x1x9x256x256_0_2_3_4 : S8x9x256x256.BroadcastsInDim S8x1x9x256x256 (![0, 2, 3, 4] : Fin 4 → Fin S8x1x9x256x256.rank)
  bcast_S8x1x9x256x256_S8x12x9x256x256_0_1_2_3_4 : S8x1x9x256x256.BroadcastsInDim S8x12x9x256x256 (![0, 1, 2, 3, 4] : Fin 5 → Fin S8x12x9x256x256.rank)
  bcast_S_S8x258x258 : S_.BroadcastsInDim S8x258x258 (![] : Fin 0 → Fin S8x258x258.rank)
  slices_S8x9x256x256_S8x1x256x256_0_0_0_0 : S8x9x256x256.Slices ![0, 0, 0, 0] S8x1x256x256
  shapeCasts_S8x1x256x256_S8x256x256 : S8x1x256x256.ShapeCasts S8x256x256
  bcast_S_S1 : S_.BroadcastsInDim S1 (![] : Fin 0 → Fin S1.rank)
  concatenates_S1_S1_S2_d0 : Shape.Concatenates [S1, S1] S2 0
  slices_S8x9x256x256_S8x1x256x256_0_1_0_0 : S8x9x256x256.Slices ![0, 1, 0, 0] S8x1x256x256
  slices_S8x9x256x256_S8x1x256x256_0_2_0_0 : S8x9x256x256.Slices ![0, 2, 0, 0] S8x1x256x256
  slices_S8x9x256x256_S8x1x256x256_0_3_0_0 : S8x9x256x256.Slices ![0, 3, 0, 0] S8x1x256x256
  slices_S8x9x256x256_S8x1x256x256_0_4_0_0 : S8x9x256x256.Slices ![0, 4, 0, 0] S8x1x256x256
  slices_S8x9x256x256_S8x1x256x256_0_5_0_0 : S8x9x256x256.Slices ![0, 5, 0, 0] S8x1x256x256
  slices_S8x9x256x256_S8x1x256x256_0_6_0_0 : S8x9x256x256.Slices ![0, 6, 0, 0] S8x1x256x256
  slices_S8x9x256x256_S8x1x256x256_0_7_0_0 : S8x9x256x256.Slices ![0, 7, 0, 0] S8x1x256x256
  slices_S8x9x256x256_S8x1x256x256_0_8_0_0 : S8x9x256x256.Slices ![0, 8, 0, 0] S8x1x256x256
  slices_S8x258x258_S8x256x256_0_1_1 : S8x258x258.Slices ![0, 1, 1] S8x256x256
  bcast_S8x256x256_S8x1x256x256_0_2_3 : S8x256x256.BroadcastsInDim S8x1x256x256 (![0, 2, 3] : Fin 3 → Fin S8x1x256x256.rank)
  bcast_S8x1x256x256_S8x1x256x2x256_0_1_2_4 : S8x1x256x256.BroadcastsInDim S8x1x256x2x256 (![0, 1, 2, 4] : Fin 4 → Fin S8x1x256x2x256.rank)
  shapeCasts_S8x1x256x2x256_S8x1x512x256 : S8x1x256x2x256.ShapeCasts S8x1x512x256
  bcast_S8x1x512x256_S8x1x512x256x2_0_1_2_3 : S8x1x512x256.BroadcastsInDim S8x1x512x256x2 (![0, 1, 2, 3] : Fin 4 → Fin S8x1x512x256x2.rank)
  shapeCasts_S8x1x512x256x2_S8x1x512x512 : S8x1x512x256x2.ShapeCasts S8x1x512x512
  bcast_S_S8x1x512x512 : S_.BroadcastsInDim S8x1x512x512 (![] : Fin 0 → Fin S8x1x512x512.rank)
  bcast_S8x1x512x512_S8x3x512x512_0_1_2_3 : S8x1x512x512.BroadcastsInDim S8x3x512x512 (![0, 1, 2, 3] : Fin 4 → Fin S8x3x512x512.rank)
  bcast_S_S8x3x512x512 : S_.BroadcastsInDim S8x3x512x512 (![] : Fin 0 → Fin S8x3x512x512.rank)
  scatter_S8x258x258_S2_S8x256x256_012_n_12_0_wf : ScatterDims.WF S8x258x258 S2 S8x256x256 [0, 1, 2] [] [1, 2] 0

variable [Facts₀]

def scatter_S8x258x258_S2_S8x256x256_012_n_12_0 : ScatterDims S8x258x258 S2 S8x256x256 where
  updateWindowDims := [0, 1, 2]
  insertedWindowDims := []
  scatterDimsToOperandDims := [1, 2]
  indexVectorDim := 0
  wf := scatter_S8x258x258_S2_S8x256x256_012_n_12_0_wf

class Facts : Prop extends Facts₀ where

variable [Facts]
-- ==== Proof.Spec.lean ====
/-
  The function both programs compute, index by index, over the extended reals.

  The array `xp` is the zero-padded pixel-unshuffled input: 8 batches of 12 channels of 258 × 258 entries.  At a
  padded position (r, s) of batch b the twelve channel entries form a column.  A column's weighted value is the sum
  of its entries, each weighted by its softmax weight: the exponential of the entry minus the column's maximum,
  divided by the sum of those exponentials.  For each of the nine offsets (i, j) of the 3 × 3 window, the 256 × 256
  array of weighted values of the columns at (u + i, v + j) is laid back at offset (i, j) inside a 258 × 258 array
  of zeros, and the nine arrays are added in the order (0,0), (0,1), …, (2,2).  The centre 256 × 256 part of that
  sum, passed through the logistic function, gates the input: each entry (h, w) of each of the three channels is
  multiplied by the gate at (h / 2, w / 2), scaled by the word of 0.9, and the entry scaled by the word of 0.1 is added.
-/
import Idealize.ShloMosaic.PureOps.Ideal
import Idealize.ShloMosaic.Lib.ValueIdx

noncomputable section

namespace PatchGate

open Idealize.ShloMosaic Idealize.ShloMosaic.ValueIdx
open scoped BigOperators

/-- The value a column maximum is folded from: the f32 word of −∞, kept as a word (both programs spell this word). -/
abbrev negInf : EReal := Ideal.ofBits .f32 0xFF800000#32

/-- The maximum of a column of twelve entries, folded from −∞. -/
def colMax (v : Fin 12 → EReal) : EReal := (Finset.univ : Finset (Fin 12)).fold max negInf v

/-- A column's softmax-weighted value: Σ_c v_c · (exp (v_c − max v) / Σ_c' exp (v_c' − max v)). -/
def wsm (v : Fin 12 → EReal) : EReal :=
  ∑ c : Fin 12, v c * Ideal.div (Ideal.exp (v c - colMax v)) (∑ c' : Fin 12, Ideal.exp (v c' - colMax v))

/-- The padded array's type: 8 batches, 12 channels, 258 × 258 positions. -/
abbrev Padded : Type := (⟨4, ![8, 12, 258, 258]⟩ : Shape).Idx → EReal

/-- The column of the twelve channel entries at padded position (r, s) of batch b. -/
def col (xp : Padded) (b : Fin 8) (r s : Fin 258) : Fin 12 → EReal := fun c => xp (ix4 b c r s)

/-- The weighted value of the column that the window offset (i, j) reads for output position (u, v). -/
def W (xp : Padded) (b : Fin 8) (i j : Nat) (hi : i ≤ 2) (hj : j ≤ 2) (u v : Fin 256) : EReal :=
  wsm (col xp b ⟨u.val + i, by have := u.isLt; omega⟩ ⟨v.val + j, by have := v.isLt; omega⟩)

/-- Offset (i, j)'s term of the overlap-add at padded position (r, s): the weighted value laid back at offset
    (i, j), zero outside the 256 × 256 window that starts there. -/
def T (xp : Padded) (b : Fin 8) (i j : Nat) (hi : i ≤ 2) (hj : j ≤ 2) (r s : Fin 258) : EReal :=
  if h : i ≤ r.val ∧ r.val < i + 256 ∧ j ≤ s.val ∧ s.val < j + 256 then
    W xp b i j hi hj ⟨r.val - i, by omega⟩ ⟨s.val - j, by omega⟩
  else 0

/-- The overlap-add of the nine terms at padded position (r, s), added from zero in the order (0,0), (0,1), …, (2,2). -/
def acc (xp : Padded) (b : Fin 8) (r s : Fin 258) : EReal :=
  ((((((((0 + T xp b 0 0 (by omega) (by omega) r s) + T xp b 0 1 (by omega) (by omega) r s)
    + T xp b 0 2 (by omega) (by omega) r s) + T xp b 1 0 (by omega) (by omega) r s)
    + T xp b 1 1 (by omega) (by omega) r s) + T xp b 1 2 (by omega) (by omega) r s)
    + T xp b 2 0 (by omega) (by omega) r s) + T xp b 2 1 (by omega) (by omega) r s)
    + T xp b 2 2 (by omega) (by omega) r s

/-- The gate at position (p, q) of the 256 × 256 grid: the logistic of the overlap-add at the centre position (p + 1, q + 1). -/
def gate (xp : Padded) (b : Fin 8) (p q : Fin 256) : EReal :=
  Ideal.logistic (acc xp b ⟨p.val + 1, by have := p.isLt; omega⟩ ⟨q.val + 1, by have := q.isLt; omega⟩)

/-- One output entry from the input entry `xv` and the gate `g`: f32(0.9) · (xv · g) + f32(0.1) · xv, the two
    scale words kept as words (both programs spell the same two words). -/
def blend (xv g : EReal) : EReal :=
  Ideal.ofBits .f32 0x3F666666#32 * (xv * g) + Ideal.ofBits .f32 0x3DCCCCCD#32 * xv

/-- The input array's type: 8 batches, 3 channels, 512 × 512 positions. -/
abbrev Image : Type := (⟨4, ![8, 3, 512, 512]⟩ : Shape).Idx → EReal

/-- The gate that entry (h, w) of a 512 × 512 channel meets: the 256 × 256 gate upsampled twofold by repetition. -/
def gateUp (xp : Padded) (b : Fin 8) (h w : Fin 512) : EReal :=
  gate xp b ⟨h.val / 2, by have := h.isLt; omega⟩ ⟨w.val / 2, by have := w.isLt; omega⟩

/-- The whole result: entry (b, c, h, w) is the input entry blended with the upsampled gate at (b, h, w). -/
def G (x : Image) (xp : Padded) : Image := fun i =>
  blend (x i) (gateUp xp ⟨(i 0).val, (i 0).isLt⟩ ⟨(i 2).val, (i 2).isLt⟩ ⟨(i 3).val, (i 3).isLt⟩)

theorem G_apply (x : Image) (xp : Padded) (b : Fin 8) (c : Fin 3) (h w : Fin 512) :
    G x xp (ix4 b c h w) = blend (x (ix4 b c h w)) (gateUp xp b h w) := rfl

end PatchGate

end
-- ==== Proof.KernelPatch.lean ====
/-
  The kernel's work on one 12 × 256 × 256 patch, read at an entry.

  From a patch the kernel takes the maximum over the twelve channels, subtracts it, exponentiates, sums the
  exponentials over the channels, divides, multiplies the patch by the quotient and sums over the channels again: at
  entry (u, v) that is the softmax-weighted value of the column of the twelve entries (c, u, v).  A patch is a
  unit-stride slice of the 12 × 258 × 258 block at an offset (i, j) on the last two axes: its entry (c, u, v) is the
  block's entry (c, u + i, v + j).
-/
import proofs.«114907_j41266045780687_1_alg».proof.KernelIdeal
import proofs.«114907_j41266045780687_1_alg».proof.Proof.Spec
import Idealize.ShloMosaic.PureOps.Ideal.Laws
import Idealize.ShloMosaic.Lib.Pipeline.Value
import Idealize.ShloMosaic.Lib.ValueLayout

noncomputable section

namespace Cert.KernelIdeal.PatchValue

open Cert.KernelIdeal Idealize.ShloMosaic Idealize.ShloMosaic.ValueIdx

variable [Cert.KernelIdeal.Facts₀]
open Cert.KernelIdeal.Facts₀

/-- The kernel's operations on one patch, in its own words: maximum over the channels, subtract, exponentiate, sum,
    divide, multiply by the patch, sum. -/
def patchSum (P : FVec Ideal S12x256x256 .f32) : FVec Ideal S256x256 .f32 :=
  have m : FVec Ideal S256x256 .f32 := multiReduction .maximumf [0] S256x256 P 0xFF800000#32 reduces_S12x256x256_S256x256 (.inl rfl) rfl
  have e : FVec Ideal S12x256x256 .f32 := exp (subf P (broadcastTo S12x256x256 (shapeCast S1x256x256 m shapeCasts_S256x256_S1x256x256) broadcasts_S1x256x256_S12x256x256))
  have s : FVec Ideal S256x256 .f32 := multiReduction .add [0] S256x256 e 0x00000000#32 reduces_S12x256x256_S256x256 (.inl rfl) rfl
  multiReduction .add [0] S256x256 (mulf P (divf e (broadcastTo S12x256x256 (shapeCast S1x256x256 s shapeCasts_S256x256_S1x256x256) broadcasts_S1x256x256_S12x256x256))) 0x00000000#32 reduces_S12x256x256_S256x256 (.inl rfl) rfl

/-- The index of the 12 × 256 × 256 patch that the channel reduction reads for the result entry (u, v) and channel k:
    the entry (k, u, v). -/
theorem lift_eq (h : S12x256x256.Reduces [0] S256x256) (u v : Fin 256) (k : Fin (S12x256x256.size 0)) :
    h.lift (ix2 u v) k = ix3 (⟨k.val, k.isLt⟩ : Fin 12) u v := by
  funext d; apply Fin.ext; fin_cases d <;> rfl

/-- A channel sum of a 12 × 256 × 256 array at entry (u, v): the sum of its twelve entries (c, u, v), with no
    initial term. -/
theorem chanSum_apply (X : FVec Ideal S12x256x256 .f32) (u v : Fin 256) :
    multiReduction .add [0] S256x256 X 0x00000000#32 reduces_S12x256x256_S256x256 (.inl rfl) rfl (ix2 u v)
      = ∑ c : Fin 12, X (ix3 c u v) := by
  refine (Ideal.multiReduction_add_single X 0x00000000#32 reduces_S12x256x256_S256x256 (.inl rfl) rfl (ix2 u v)).trans ?_
  exact Finset.sum_congr rfl fun k _ => congrArg X (lift_eq _ u v k)

/-- A channel maximum of a 12 × 256 × 256 array at entry (u, v): the maximum of its twelve entries (c, u, v), folded
    from the word of −∞, which stays a word. -/
theorem chanMax_apply (X : FVec Ideal S12x256x256 .f32) (u v : Fin 256) :
    multiReduction .maximumf [0] S256x256 X 0xFF800000#32 reduces_S12x256x256_S256x256 (.inl rfl) rfl (ix2 u v)
      = PatchGate.colMax (fun c : Fin 12 => X (ix3 c u v)) := by
  refine (Ideal.multiReduction_maximumf_single X 0xFF800000#32 reduces_S12x256x256_S256x256 (.inl rfl) rfl (ix2 u v)).trans ?_
  exact congrArg (fun f : Fin 12 → EReal => (Finset.univ : Finset (Fin 12)).fold max PatchGate.negInf f)
    (funext fun k => congrArg X (lift_eq _ u v k))

/-- A 256 × 256 array laid over the twelve channels reads, at (c, u, v), its own entry (u, v). -/
theorem spread_apply (x : FVec Ideal S256x256 .f32) (c : Fin 12) (u v : Fin 256) :
    broadcastTo S12x256x256 (shapeCast S1x256x256 x shapeCasts_S256x256_S1x256x256) broadcasts_S1x256x256_S12x256x256 (ix3 c u v)
      = x (ix2 u v) := by
  refine (broadcastTo_apply _ broadcasts_S1x256x256_S12x256x256 (ix3 c u v) (ix3 (0 : Fin 1) u v) ?_).trans ?_
  · intro a; fin_cases a <;> rfl
  · exact shapeCast_ab_1ab_apply x shapeCasts_S256x256_S1x256x256 0 u v

/-- The channel maximum of a patch. -/
def patchMax (P : FVec Ideal S12x256x256 .f32) : FVec Ideal S256x256 .f32 :=
  multiReduction .maximumf [0] S256x256 P 0xFF800000#32 reduces_S12x256x256_S256x256 (.inl rfl) rfl

/-- The exponentials of a patch's entries less their channel maximum. -/
def patchExp (P : FVec Ideal S12x256x256 .f32) : FVec Ideal S12x256x256 .f32 :=
  exp (subf P (broadcastTo S12x256x256 (shapeCast S1x256x256 (patchMax P) shapeCasts_S256x256_S1x256x256) broadcasts_S1x256x256_S12x256x256))

/-- The channel sum of those exponentials. -/
def patchExpSum (P : FVec Ideal S12x256x256 .f32) : FVec Ideal S256x256 .f32 :=
  multiReduction .add [0] S256x256 (patchExp P) 0x00000000#32 reduces_S12x256x256_S256x256 (.inl rfl) rfl

/-- The patch's result, with its three intermediate arrays named. -/
theorem patchSum_eq (P : FVec Ideal S12x256x256 .f32) :
    patchSum P = multiReduction .add [0] S256x256 (mulf P (divf (patchExp P) (broadcastTo S12x256x256 (shapeCast S1x256x256 (patchExpSum P) shapeCasts_S256x256_S1x256x256) broadcasts_S1x256x256_S12x256x256))) 0x00000000#32 reduces_S12x256x256_S256x256 (.inl rfl) rfl := rfl

/-- At (c, u, v) the exponential is that of the entry less the column's maximum. -/
theorem patchExp_apply (P : FVec Ideal S12x256x256 .f32) (c : Fin 12) (u v : Fin 256) :
    patchExp P (ix3 c u v)
      = Ideal.exp (P (ix3 c u v) - PatchGate.colMax (fun c : Fin 12 => P (ix3 c u v))) :=
  congrArg (fun t => Ideal.exp (P (ix3 c u v) - t)) ((spread_apply (patchMax P) c u v).trans (chanMax_apply P u v))

/-- At (u, v) the sum of the exponentials is the sum over the column. -/
theorem patchExpSum_apply (P : FVec Ideal S12x256x256 .f32) (u v : Fin 256) :
    patchExpSum P (ix2 u v)
      = ∑ c' : Fin 12, Ideal.exp (P (ix3 c' u v) - PatchGate.colMax (fun c : Fin 12 => P (ix3 c u v))) :=
  (chanSum_apply (patchExp P) u v).trans (Finset.sum_congr rfl fun c' _ => patchExp_apply P c' u v)

/-- At entry (u, v) the patch's result is the softmax-weighted value of the column of its twelve entries (c, u, v). -/
theorem patchSum_apply (P : FVec Ideal S12x256x256 .f32) (u v : Fin 256) :
    patchSum P (ix2 u v) = PatchGate.wsm (fun c : Fin 12 => P (ix3 c u v)) := by
  rw [patchSum_eq]
  refine (chanSum_apply _ u v).trans ?_
  unfold PatchGate.wsm
  refine Finset.sum_congr rfl fun c _ => ?_
  show P (ix3 c u v) * Ideal.div (patchExp P (ix3 c u v))
      (broadcastTo S12x256x256 (shapeCast S1x256x256 (patchExpSum P) shapeCasts_S256x256_S1x256x256) broadcasts_S1x256x256_S12x256x256 (ix3 c u v)) = _
  rw [patchExp_apply, spread_apply, patchExpSum_apply]

/-- A unit-stride 12 × 256 × 256 slice of the 12 × 258 × 258 block at offset (i, j) on the last two axes, at entry
    (c, u, v): the block's entry (c, u + i, v + j). -/
theorem slice_apply (B : FVec Ideal S12x258x258 .f32) (i j : Nat) (hi : i ≤ 2) (hj : j ≤ 2)
    (h : S12x258x258.Slices ![0, i, j] S12x256x256) (c : Fin 12) (u v : Fin 256) :
    extractStridedSlice S12x256x256 ![0, i, j] B h (ix3 c u v)
      = B (ix3 c ⟨u.val + i, by have := u.isLt; omega⟩ ⟨v.val + j, by have := v.isLt; omega⟩) := by
  refine extractStridedSlice_apply ![0, i, j] B h (ix3 c u v) _ (fun a => ?_)
  fin_cases a
  · show c.val = 0 + c.val; omega
  · show u.val + i = i + u.val; omega
  · show v.val + j = j + v.val; omega

end Cert.KernelIdeal.PatchValue

end
-- ==== Proof.KernelLayout.lean ====
/-
  The kernel's layout operations, read at an entry.

  A 256 × 256 array is laid back at row offset i ∈ {0, 1, 2} inside 258 rows by joining it with rows of a filler
  value above and below, and at column offset j ∈ {0, 1, 2} inside 258 columns by joining columns of the filler
  left and right: entry (r, s) of the result is the array's entry (r − i, s − j) inside the window, the filler
  outside.  The centre 256 × 256 part of a 258 × 258 array, upsampled twofold by repeating every entry in a 2 × 2
  cell (a cast to 256 × 1 × 256 × 1, a broadcast to 256 × 2 × 256 × 2, a cast to 512 × 512), at entry (h, w) is the
  array's entry (h / 2 + 1, w / 2 + 1).  A 512 × 512 array repeated over three channels, at (c, h, w), is its entry (h, w).
-/
import proofs.«114907_j41266045780687_1_alg».proof.KernelIdeal
import Idealize.ShloMosaic.Lib.Pipeline.Value
import Idealize.ShloMosaic.Lib.ValueLayout

noncomputable section

namespace Cert.KernelIdeal.LayoutValue

open Cert.KernelIdeal Idealize.ShloMosaic Idealize.ShloMosaic.ValueIdx

variable [Cert.KernelIdeal.Facts₀]
open Cert.KernelIdeal.Facts₀

/-! ## Two-piece joins of rank-2 arrays read at an entry

A join of two pieces along the rows (axis 0) or along the columns (axis 1), read at an entry: the first piece at the
same entry when the joined coordinate is below the first piece's extent, the second piece at the entry with that
extent taken off the joined coordinate otherwise. -/

section Join
variable {α : Type}

/-- A join along the rows at a row below the first piece's height reads the first piece. -/
theorem join_rows_left {n₁ n₂ n m : Nat} (x₁ : (⟨2, ![n₁, m]⟩ : Shape).Idx → α) (x₂ : (⟨2, ![n₂, m]⟩ : Shape).Idx → α)
    (h : Shape.Concatenates [(⟨2, ![n₁, m]⟩ : Shape), ⟨2, ![n₂, m]⟩] ⟨2, ![n, m]⟩ 0) (r : Fin n) (v : Fin m) (hr : r.val < n₁) :
    concatenate ⟨2, ![n, m]⟩ 0 [⟨⟨2, ![n₁, m]⟩, x₁⟩, ⟨⟨2, ![n₂, m]⟩, x₂⟩] h (ix2 r v) = x₁ (ix2 ⟨r.val, hr⟩ v) :=
  concatenate_pair_apply_left 0 x₁ x₂ h (ix2 r v) rfl (ix2 ⟨r.val, hr⟩ v)
    (fun b => by match b with | ⟨0, _⟩ => rfl | ⟨1, _⟩ => rfl)

/-- A join along the rows at a row at or past the first piece's height reads the second piece, that height less. -/
theorem join_rows_right {n₁ n₂ n m : Nat} (x₁ : (⟨2, ![n₁, m]⟩ : Shape).Idx → α) (x₂ : (⟨2, ![n₂, m]⟩ : Shape).Idx → α)
    (h : Shape.Concatenates [(⟨2, ![n₁, m]⟩ : Shape), ⟨2, ![n₂, m]⟩] ⟨2, ![n, m]⟩ 0) (r : Fin n) (v : Fin m) (hr : n₁ ≤ r.val)
    (hlt : r.val - n₁ < n₂) :
    concatenate ⟨2, ![n, m]⟩ 0 [⟨⟨2, ![n₁, m]⟩, x₁⟩, ⟨⟨2, ![n₂, m]⟩, x₂⟩] h (ix2 r v) = x₂ (ix2 ⟨r.val - n₁, hlt⟩ v) :=
  concatenate_pair_apply_right 0 x₁ x₂ h (ix2 r v) rfl rfl (ix2 ⟨r.val - n₁, hlt⟩ v)
    (fun b hb => by match b, hb with | ⟨0, _⟩, hb => exact absurd rfl hb | ⟨1, _⟩, _ => rfl)
    (by show (r.val - n₁) + n₁ = r.val; omega)

/-- A join along the columns at a column below the first piece's width reads the first piece. -/
theorem join_cols_left {m₁ m₂ m n : Nat} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1) (r : Fin n) (s : Fin m) (hs : s.val < m₁) :
    concatenate ⟨2, ![n, m]⟩ 1 [⟨⟨2, ![n, m₁]⟩, x₁⟩, ⟨⟨2, ![n, m₂]⟩, x₂⟩] h (ix2 r s) = x₁ (ix2 r ⟨s.val, hs⟩) :=
  concatenate_pair_apply_left 1 x₁ x₂ h (ix2 r s) rfl (ix2 r ⟨s.val, hs⟩)
    (fun b => by match b with | ⟨0, _⟩ => rfl | ⟨1, _⟩ => rfl)

/-- A join along the columns at a column at or past the first piece's width reads the second piece, that width less. -/
theorem join_cols_right {m₁ m₂ m n : Nat} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1) (r : Fin n) (s : Fin m) (hs : m₁ ≤ s.val)
    (hlt : s.val - m₁ < m₂) :
    concatenate ⟨2, ![n, m]⟩ 1 [⟨⟨2, ![n, m₁]⟩, x₁⟩, ⟨⟨2, ![n, m₂]⟩, x₂⟩] h (ix2 r s) = x₂ (ix2 r ⟨s.val - m₁, hlt⟩) :=
  concatenate_pair_apply_right 1 x₁ x₂ h (ix2 r s) rfl rfl (ix2 r ⟨s.val - m₁, hlt⟩)
    (fun b hb => by match b, hb with | ⟨0, _⟩, _ => rfl | ⟨1, _⟩, hb => exact absurd rfl hb)
    (by show (s.val - m₁) + m₁ = s.val; omega)

end Join

/-! ## Rows: a 256 × 256 array inside 258 rows at row offset 0, 1, 2 -/

def rows0 (A : FVec Ideal S256x256 .f32) (z : Ideal .f32) : FVec Ideal S258x256 .f32 :=
  concatenate S258x256 0 [⟨S256x256, A⟩, ⟨S2x256, broadcast S2x256 z⟩] concatenates_S256x256_S2x256_S258x256_d0

def rows1 (A : FVec Ideal S256x256 .f32) (z : Ideal .f32) : FVec Ideal S258x256 .f32 :=
  concatenate S258x256 0 [⟨S257x256, concatenate S257x256 0 [⟨S1x256, broadcast S1x256 z⟩, ⟨S256x256, A⟩] concatenates_S1x256_S256x256_S257x256_d0⟩, ⟨S1x256, broadcast S1x256 z⟩] concatenates_S257x256_S1x256_S258x256_d0

def rows2 (A : FVec Ideal S256x256 .f32) (z : Ideal .f32) : FVec Ideal S258x256 .f32 :=
  concatenate S258x256 0 [⟨S2x256, broadcast S2x256 z⟩, ⟨S256x256, A⟩] concatenates_S2x256_S256x256_S258x256_d0

theorem rows0_apply (A : FVec Ideal S256x256 .f32) (z : Ideal .f32) (r : Fin 258) (v : Fin 256) :
    rows0 A z (ix2 r v) = if h : r.val < 256 then A (ix2 ⟨r.val, h⟩ v) else z := by
  have hr := r.isLt
  by_cases h : r.val < 256
  · rw [dif_pos h]
    exact join_rows_left A (broadcast S2x256 z) concatenates_S256x256_S2x256_S258x256_d0 r v h
  · rw [dif_neg h]
    exact join_rows_right A (broadcast S2x256 z) concatenates_S256x256_S2x256_S258x256_d0 r v (by omega) (by omega)

theorem rows1_apply (A : FVec Ideal S256x256 .f32) (z : Ideal .f32) (r : Fin 258) (v : Fin 256) :
    rows1 A z (ix2 r v) = if h : 1 ≤ r.val ∧ r.val < 1 + 256 then A (ix2 ⟨r.val - 1, by omega⟩ v) else z := by
  have hr := r.isLt
  by_cases h : 1 ≤ r.val ∧ r.val < 1 + 256
  · rw [dif_pos h]
    refine (join_rows_left _ (broadcast S1x256 z) concatenates_S257x256_S1x256_S258x256_d0 r v (by omega)).trans ?_
    exact join_rows_right (broadcast S1x256 z) A concatenates_S1x256_S256x256_S257x256_d0 ⟨r.val, by omega⟩ v h.1 (by show r.val - 1 < 256; omega)
  · rw [dif_neg h]
    by_cases h0 : r.val < 1
    · refine (join_rows_left _ (broadcast S1x256 z) concatenates_S257x256_S1x256_S258x256_d0 r v (by omega)).trans ?_
      exact join_rows_left (broadcast S1x256 z) A concatenates_S1x256_S256x256_S257x256_d0 ⟨r.val, by omega⟩ v h0
    · exact join_rows_right _ (broadcast S1x256 z) concatenates_S257x256_S1x256_S258x256_d0 r v (by omega) (by omega)

theorem rows2_apply (A : FVec Ideal S256x256 .f32) (z : Ideal .f32) (r : Fin 258) (v : Fin 256) :
    rows2 A z (ix2 r v) = if h : 2 ≤ r.val then A (ix2 ⟨r.val - 2, by have := r.isLt; omega⟩ v) else z := by
  have hr := r.isLt
  by_cases h : 2 ≤ r.val
  · rw [dif_pos h]
    exact join_rows_right (broadcast S2x256 z) A concatenates_S2x256_S256x256_S258x256_d0 r v h (by omega)
  · rw [dif_neg h]
    exact join_rows_left (broadcast S2x256 z) A concatenates_S2x256_S256x256_S258x256_d0 r v (by omega)

/-! ## Columns: a 258 × 256 array inside 258 columns at column offset 0, 1, 2 -/

def cols0 (R : FVec Ideal S258x256 .f32) (z : Ideal .f32) : FVec Ideal S258x258 .f32 :=
  concatenate S258x258 1 [⟨S258x256, R⟩, ⟨S258x2, broadcast S258x2 z⟩] concatenates_S258x256_S258x2_S258x258_d1

def cols1 (R : FVec Ideal S258x256 .f32) (z : Ideal .f32) : FVec Ideal S258x258 .f32 :=
  concatenate S258x258 1 [⟨S258x257, concatenate S258x257 1 [⟨S258x1, broadcast S258x1 z⟩, ⟨S258x256, R⟩] concatenates_S258x1_S258x256_S258x257_d1⟩, ⟨S258x1, broadcast S258x1 z⟩] concatenates_S258x257_S258x1_S258x258_d1

def cols2 (R : FVec Ideal S258x256 .f32) (z : Ideal .f32) : FVec Ideal S258x258 .f32 :=
  concatenate S258x258 1 [⟨S258x2, broadcast S258x2 z⟩, ⟨S258x256, R⟩] concatenates_S258x2_S258x256_S258x258_d1

theorem cols0_apply (R : FVec Ideal S258x256 .f32) (z : Ideal .f32) (r s : Fin 258) :
    cols0 R z (ix2 r s) = if h : s.val < 256 then R (ix2 r ⟨s.val, h⟩) else z := by
  have hs := s.isLt
  by_cases h : s.val < 256
  · rw [dif_pos h]
    exact join_cols_left R (broadcast S258x2 z) concatenates_S258x256_S258x2_S258x258_d1 r s h
  · rw [dif_neg h]
    exact join_cols_right R (broadcast S258x2 z) concatenates_S258x256_S258x2_S258x258_d1 r s (by omega) (by omega)

theorem cols1_apply (R : FVec Ideal S258x256 .f32) (z : Ideal .f32) (r s : Fin 258) :
    cols1 R z (ix2 r s) = if h : 1 ≤ s.val ∧ s.val < 1 + 256 then R (ix2 r ⟨s.val - 1, by omega⟩) else z := by
  have hs := s.isLt
  by_cases h : 1 ≤ s.val ∧ s.val < 1 + 256
  · rw [dif_pos h]
    refine (join_cols_left _ (broadcast S258x1 z) concatenates_S258x257_S258x1_S258x258_d1 r s (by omega)).trans ?_
    exact join_cols_right (broadcast S258x1 z) R concatenates_S258x1_S258x256_S258x257_d1 r ⟨s.val, by omega⟩ h.1 (by show s.val - 1 < 256; omega)
  · rw [dif_neg h]
    by_cases h0 : s.val < 1
    · refine (join_cols_left _ (broadcast S258x1 z) concatenates_S258x257_S258x1_S258x258_d1 r s (by omega)).trans ?_
      exact join_cols_left (broadcast S258x1 z) R concatenates_S258x1_S258x256_S258x257_d1 r ⟨s.val, by omega⟩ h0
    · exact join_cols_right _ (broadcast S258x1 z) concatenates_S258x257_S258x1_S258x258_d1 r s (by omega) (by omega)

theorem cols2_apply (R : FVec Ideal S258x256 .f32) (z : Ideal .f32) (r s : Fin 258) :
    cols2 R z (ix2 r s) = if h : 2 ≤ s.val then R (ix2 r ⟨s.val - 2, by have := s.isLt; omega⟩) else z := by
  have hs := s.isLt
  by_cases h : 2 ≤ s.val
  · rw [dif_pos h]
    exact join_cols_right (broadcast S258x2 z) R concatenates_S258x2_S258x256_S258x258_d1 r s h (by omega)
  · rw [dif_neg h]
    exact join_cols_left (broadcast S258x2 z) R concatenates_S258x2_S258x256_S258x258_d1 r s (by omega)

/-! ## The centre part upsampled twofold, and the repetition over the channels -/

def upsample (A : FVec Ideal S258x258 .f32) : FVec Ideal S512x512 .f32 :=
  shapeCast S512x512 (broadcastTo S256x2x256x2 (shapeCast S256x1x256x1 (shapeCast S256x1x256x1 (extractStridedSlice S256x256 ![1, 1] A slices_S258x258_o1_1_S256x256) shapeCasts_S256x256_S256x1x256x1) shapeCasts_S256x1x256x1_S256x1x256x1) broadcasts_S256x1x256x1_S256x2x256x2) shapeCasts_S256x2x256x2_S512x512

theorem upsample_apply (A : FVec Ideal S258x258 .f32) (h w : Fin 512) :
    upsample A (ix2 h w) = A (ix2 ⟨h.val / 2 + 1, by have := h.isLt; omega⟩ ⟨w.val / 2 + 1, by have := w.isLt; omega⟩) := by
  have hh := h.isLt
  have hw := w.isLt
  unfold upsample
  -- entry (h, w) of the 512 × 512 array is entry (h / 2, h % 2, w / 2, w % 2) of the 256 × 2 × 256 × 2 one
  refine (shapeCast_apply _ shapeCasts_S256x2x256x2_S512x512 (ix2 h w)
    (ix4 (⟨h.val / 2, by omega⟩ : Fin 256) (⟨h.val % 2, by omega⟩ : Fin 2) (⟨w.val / 2, by omega⟩ : Fin 256) (⟨w.val % 2, by omega⟩ : Fin 2)) ?_).trans ?_
  · rw [Shape.rowMajor_val_four, Shape.rowMajor_val_two]
    show ((h.val / 2 * 2 + h.val % 2) * 256 + w.val / 2) * 2 + w.val % 2 = h.val * 512 + w.val
    omega
  -- which repeats entry (h / 2, 0, w / 2, 0) of the 256 × 1 × 256 × 1 one
  refine (broadcastTo_apply _ broadcasts_S256x1x256x1_S256x2x256x2 _
    (ix4 (⟨h.val / 2, by omega⟩ : Fin 256) (0 : Fin 1) (⟨w.val / 2, by omega⟩ : Fin 256) (0 : Fin 1)) ?_).trans ?_
  · intro a
    match a with
    | ⟨0, _⟩ => rfl
    | ⟨1, _⟩ => rfl
    | ⟨2, _⟩ => rfl
    | ⟨3, _⟩ => rfl
  -- the cast to the same shape changes nothing
  refine (congrFun (shapeCast_self _ shapeCasts_S256x1x256x1_S256x1x256x1) _).trans ?_
  -- entry (p, 0, q, 0) of the 256 × 1 × 256 × 1 array is entry (p, q) of the 256 × 256 one
  refine (shapeCast_apply _ shapeCasts_S256x256_S256x1x256x1 _
    (ix2 (⟨h.val / 2, by omega⟩ : Fin 256) (⟨w.val / 2, by omega⟩ : Fin 256)) ?_).trans ?_
  · rw [Shape.rowMajor_val_four, Shape.rowMajor_val_two]
    show h.val / 2 * 256 + w.val / 2 = ((h.val / 2 * 1 + 0) * 256 + w.val / 2) * 1 + 0
    omega
  -- and the slice starts at (1, 1)
  refine extractStridedSlice_apply _ A slices_S258x258_o1_1_S256x256 _ _ ?_
  intro a
  match a with
  | ⟨0, _⟩ => show h.val / 2 + 1 = 1 + h.val / 2; omega
  | ⟨1, _⟩ => show w.val / 2 + 1 = 1 + w.val / 2; omega

def overChannels (g : FVec Ideal S512x512 .f32) : FVec Ideal S3x512x512 .f32 :=
  broadcastTo S3x512x512 (shapeCast S1x512x512 g shapeCasts_S512x512_S1x512x512) broadcasts_S1x512x512_S3x512x512

theorem overChannels_apply (g : FVec Ideal S512x512 .f32) (c : Fin 3) (h w : Fin 512) :
    overChannels g (ix3 c h w) = g (ix2 h w) := by
  have hh := h.isLt
  have hw := w.isLt
  unfold overChannels
  refine (broadcastTo_apply _ broadcasts_S1x512x512_S3x512x512 (ix3 c h w) (ix3 (0 : Fin 1) h w) ?_).trans ?_
  · intro a
    match a with
    | ⟨0, _⟩ => rfl
    | ⟨1, _⟩ => rfl
    | ⟨2, _⟩ => rfl
  refine shapeCast_apply g shapeCasts_S512x512_S1x512x512 _ (ix2 h w) ?_
  rw [Shape.rowMajor_val_two, Shape.rowMajor_val_three]
  show h.val * 512 + w.val = (0 * 512 + h.val) * 512 + w.val
  omega

end Cert.KernelIdeal.LayoutValue

end
-- ==== Proof.KernelBlock.lean ====
/-
  What the kernel's body leaves in the output block, entry by entry.

  The body's value is a composition of the operations read in the neighbouring modules: nine patches of the padded
  block, each reduced to its softmax-weighted values, laid back at its offset inside 258 × 258 zeros and added in
  order; the centre part upsampled twofold, passed through the logistic function and repeated over the three
  channels; the input block multiplied by it, scaled by the word of 0.9, and the input block scaled by the word of
  0.1 added.  Entry (c, h, w) of the result is therefore the blend of the input block's entry with the gate at (h, w),
  the gate computed from the padded block alone.
-/
import proofs.«114907_j41266045780687_1_alg».proof.Proof.Gen.KernelIdeal.Frame
import proofs.«114907_j41266045780687_1_alg».proof.Proof.KernelPatch
import proofs.«114907_j41266045780687_1_alg».proof.Proof.KernelLayout
import proofs.«114907_j41266045780687_1_alg».proof.Proof.Spec
import Idealize.ShloMosaic.Lib.Pipeline.Value
import Idealize.ShloMosaic.Lib.ValueLayout
import Idealize.ShloMosaic.PureOps.Ideal.Laws

noncomputable section

namespace Cert.KernelIdeal.BlockValue

open Cert.KernelIdeal Cert.KernelIdeal.Gen Cert.KernelIdeal.PatchValue Cert.KernelIdeal.LayoutValue
open Idealize.ShloMosaic Idealize.ShloMosaic.ValueIdx Idealize.SL.Sem

/-- The filler of the paddings as the kernel spells it: the integer 0 converted to a float. -/
abbrev zK : Ideal .f32 := Scalar.sitofp .f32 (0#32 : BitVec 32)

theorem zK_eq : zK = 0 := by
  show (((0#32 : BitVec 32).toInt : ℝ) : EReal) = 0
  simp

/-- The weighted values of the patch at offset (0, 0). -/
def w00 (B : FVec Ideal S12x258x258 .f32) : FVec Ideal S256x256 .f32 :=
  patchSum (extractStridedSlice S12x256x256 ![0, 0, 0] B slices_S12x258x258_o0_0_0_S12x256x256)
/-- The weighted values of the patch at offset (0, 1). -/
def w01 (B : FVec Ideal S12x258x258 .f32) : FVec Ideal S256x256 .f32 :=
  patchSum (extractStridedSlice S12x256x256 ![0, 0, 1] B slices_S12x258x258_o0_0_1_S12x256x256)
/-- The weighted values of the patch at offset (0, 2). -/
def w02 (B : FVec Ideal S12x258x258 .f32) : FVec Ideal S256x256 .f32 :=
  patchSum (extractStridedSlice S12x256x256 ![0, 0, 2] B slices_S12x258x258_o0_0_2_S12x256x256)
/-- The weighted values of the patch at offset (1, 0). -/
def w10 (B : FVec Ideal S12x258x258 .f32) : FVec Ideal S256x256 .f32 :=
  patchSum (extractStridedSlice S12x256x256 ![0, 1, 0] B slices_S12x258x258_o0_1_0_S12x256x256)
/-- The weighted values of the patch at offset (1, 1). -/
def w11 (B : FVec Ideal S12x258x258 .f32) : FVec Ideal S256x256 .f32 :=
  patchSum (extractStridedSlice S12x256x256 ![0, 1, 1] B slices_S12x258x258_o0_1_1_S12x256x256)
/-- The weighted values of the patch at offset (1, 2). -/
def w12 (B : FVec Ideal S12x258x258 .f32) : FVec Ideal S256x256 .f32 :=
  patchSum (extractStridedSlice S12x256x256 ![0, 1, 2] B slices_S12x258x258_o0_1_2_S12x256x256)
/-- The weighted values of the patch at offset (2, 0). -/
def w20 (B : FVec Ideal S12x258x258 .f32) : FVec Ideal S256x256 .f32 :=
  patchSum (extractStridedSlice S12x256x256 ![0, 2, 0] B slices_S12x258x258_o0_2_0_S12x256x256)
/-- The weighted values of the patch at offset (2, 1). -/
def w21 (B : FVec Ideal S12x258x258 .f32) : FVec Ideal S256x256 .f32 :=
  patchSum (extractStridedSlice S12x256x256 ![0, 2, 1] B slices_S12x258x258_o0_2_1_S12x256x256)
/-- The weighted values of the patch at offset (2, 2). -/
def w22 (B : FVec Ideal S12x258x258 .f32) : FVec Ideal S256x256 .f32 :=
  patchSum (extractStridedSlice S12x256x256 ![0, 2, 2] B slices_S12x258x258_o0_2_2_S12x256x256)

/-- The overlap-add as the kernel writes it: from a zero array, the nine laid-back patches added in order. -/
def accK (B : FVec Ideal S12x258x258 .f32) : FVec Ideal S258x258 .f32 :=
  (addf (addf (addf (addf (addf (addf (addf (addf (addf (broadcast S258x258 (Scalar.ofBits .f32 0x00000000#32)) (cols0 (rows0 (w00 B) zK) zK)) (cols1 (rows0 (w01 B) zK) zK)) (cols2 (rows0 (w02 B) zK) zK)) (cols0 (rows1 (w10 B) zK) zK)) (cols1 (rows1 (w11 B) zK) zK)) (cols2 (rows1 (w12 B) zK) zK)) (cols0 (rows2 (w20 B) zK) zK)) (cols1 (rows2 (w21 B) zK) zK)) (cols2 (rows2 (w22 B) zK) zK))

/-- The body's stored value from the input block `X` (three channels) and the padded block `B` (twelve channels). -/
def body (X : FVec Ideal S3x512x512 .f32) (B : FVec Ideal S12x258x258 .f32) : FVec Ideal S1x3x512x512 .f32 :=
  shapeCast S1x3x512x512
    (addf (mulf (broadcast S3x512x512 (Scalar.ofBits .f32 0x3F666666#32)) (mulf X (overChannels (logistic (upsample (accK B))))))
      (mulf (broadcast S3x512x512 (Scalar.ofBits .f32 0x3DCCCCCD#32)) X))
    shapeCasts_S3x512x512_S1x3x512x512

/-- The generated value of the output window's buffer is that composition of the two loaded blocks. -/
theorem out_eq (x0 : Vec Ideal S1x3x512x512 .f32) (x1 : Vec Ideal S1x12x258x258 .f32) :
    out0_2 x0 x1 = View.canon [⟨r0_1, body (shapeCast S3x512x512 (View.ld x0 r0_1) shapeCasts_S1x3x512x512_S3x512x512)
      (shapeCast S12x258x258 (View.ld x1 r0_0) shapeCasts_S1x12x258x258_S12x258x258)⟩] := rfl

/-- The padded block read as a padded array: every batch the same block. -/
def slab (B : FVec Ideal S12x258x258 .f32) : PatchGate.Padded :=
  fun i => B (ix3 (⟨(i 1).val, (i 1).isLt⟩ : Fin 12) (⟨(i 2).val, (i 2).isLt⟩ : Fin 258) (⟨(i 3).val, (i 3).isLt⟩ : Fin 258))

/-! ## The laid-back arrays in one shape

A 256 × 256 array laid at row offset i inside 258 rows reads, at row r, its row r − i when i ≤ r < i + 256 and the
filler otherwise; likewise for the columns.  The three row layouts and the three column layouts are brought to that
one shape, so that one statement covers the nine offsets. -/

/-- A layout of 256 rows inside 258 rows that starts at row i. -/
def RowsAt (i : Nat) (L : FVec Ideal S256x256 .f32 → Ideal .f32 → FVec Ideal S258x256 .f32) : Prop :=
  ∀ (A : FVec Ideal S256x256 .f32) (z : Ideal .f32) (r : Fin 258) (v : Fin 256),
    L A z (ix2 r v) = if h : i ≤ r.val ∧ r.val < i + 256 then A (ix2 ⟨r.val - i, by omega⟩ v) else z

/-- A layout of 256 columns inside 258 columns that starts at column j. -/
def ColsAt (j : Nat) (L : FVec Ideal S258x256 .f32 → Ideal .f32 → FVec Ideal S258x258 .f32) : Prop :=
  ∀ (R : FVec Ideal S258x256 .f32) (z : Ideal .f32) (r s : Fin 258),
    L R z (ix2 r s) = if h : j ≤ s.val ∧ s.val < j + 256 then R (ix2 r ⟨s.val - j, by omega⟩) else z

theorem rows0_at : RowsAt 0 rows0 := by
  intro A z r v
  rw [rows0_apply]
  by_cases h : r.val < 256
  · rw [dif_pos h, dif_pos ⟨Nat.zero_le _, by omega⟩]; rfl
  · rw [dif_neg h, dif_neg (fun h' => h (by omega))]

theorem rows1_at : RowsAt 1 rows1 := fun A z r v => rows1_apply A z r v

theorem rows2_at : RowsAt 2 rows2 := by
  intro A z r v
  have hr := r.isLt
  rw [rows2_apply]
  by_cases h : 2 ≤ r.val
  · rw [dif_pos h, dif_pos ⟨h, by omega⟩]
  · rw [dif_neg h, dif_neg (fun h' => h h'.1)]

theorem cols0_at : ColsAt 0 cols0 := by
  intro R z r s
  rw [cols0_apply]
  by_cases h : s.val < 256
  · rw [dif_pos h, dif_pos ⟨Nat.zero_le _, by omega⟩]; rfl
  · rw [dif_neg h, dif_neg (fun h' => h (by omega))]

theorem cols1_at : ColsAt 1 cols1 := fun R z r s => cols1_apply R z r s

theorem cols2_at : ColsAt 2 cols2 := by
  intro R z r s
  have hs := s.isLt
  rw [cols2_apply]
  by_cases h : 2 ≤ s.val
  · rw [dif_pos h, dif_pos ⟨h, by omega⟩]
  · rw [dif_neg h, dif_neg (fun h' => h h'.1)]

/-- An array whose entries are the weighted values for the offset (i, j), laid back at row offset i and column
    offset j with the zero filler, is the specification's term of that offset. -/
theorem laid_apply {i j : Nat} (hi : i ≤ 2) (hj : j ≤ 2)
    {Lr : FVec Ideal S256x256 .f32 → Ideal .f32 → FVec Ideal S258x256 .f32}
    {Lc : FVec Ideal S258x256 .f32 → Ideal .f32 → FVec Ideal S258x258 .f32}
    (hR : RowsAt i Lr) (hC : ColsAt j Lc) (A : FVec Ideal S256x256 .f32) (xp : PatchGate.Padded) (b : Fin 8)
    (hA : ∀ u v : Fin 256, A (ix2 u v) = PatchGate.W xp b i j hi hj u v) (r s : Fin 258) :
    Lc (Lr A zK) zK (ix2 r s) = PatchGate.T xp b i j hi hj r s := by
  unfold PatchGate.T
  refine (hC (Lr A zK) zK r s).trans ?_
  by_cases hs : j ≤ s.val ∧ s.val < j + 256
  · rw [dif_pos hs]
    refine (hR A zK r _).trans ?_
    by_cases hr : i ≤ r.val ∧ r.val < i + 256
    · rw [dif_pos hr, dif_pos ⟨hr.1, hr.2, hs.1, hs.2⟩]
      exact hA _ _
    · rw [dif_neg hr, dif_neg (fun h => hr ⟨h.1, h.2.1⟩)]
      exact zK_eq
  · rw [dif_neg hs, dif_neg (fun h => hs ⟨h.2.2.1, h.2.2.2⟩)]
    exact zK_eq

/-- The weighted values of the patch at offset (i, j) are the specification's, of the padded block. -/
theorem w_apply (B : FVec Ideal S12x258x258 .f32) (b : Fin 8) (i j : Nat) (hi : i ≤ 2) (hj : j ≤ 2)
    (h : S12x258x258.Slices ![0, i, j] S12x256x256) (u v : Fin 256) :
    patchSum (extractStridedSlice S12x256x256 ![0, i, j] B h) (ix2 u v) = PatchGate.W (slab B) b i j hi hj u v := by
  refine (patchSum_apply _ u v).trans ?_
  exact congrArg PatchGate.wsm (funext fun c => slice_apply B i j hi hj h c u v)

/-! ## The gate reads the padded array through its columns only -/

section Slab
variable (B : FVec Ideal S12x258x258 .f32) (xp : PatchGate.Padded) (b b' : Fin 8)
  (hB : ∀ (c : Fin 12) (r s : Fin 258), B (ix3 c r s) = xp (ix4 b' c r s))
include hB

theorem col_slab (r s : Fin 258) : PatchGate.col (slab B) b r s = PatchGate.col xp b' r s :=
  funext fun c => hB c r s

theorem W_slab (i j : Nat) (hi : i ≤ 2) (hj : j ≤ 2) (u v : Fin 256) :
    PatchGate.W (slab B) b i j hi hj u v = PatchGate.W xp b' i j hi hj u v := by
  unfold PatchGate.W
  rw [col_slab B xp b b' hB]

theorem T_slab (i j : Nat) (hi : i ≤ 2) (hj : j ≤ 2) (r s : Fin 258) :
    PatchGate.T (slab B) b i j hi hj r s = PatchGate.T xp b' i j hi hj r s := by
  unfold PatchGate.T
  by_cases h : i ≤ r.val ∧ r.val < i + 256 ∧ j ≤ s.val ∧ s.val < j + 256
  · rw [dif_pos h, dif_pos h]; exact W_slab B xp b b' hB i j hi hj _ _
  · rw [dif_neg h, dif_neg h]

theorem acc_slab (r s : Fin 258) : PatchGate.acc (slab B) b r s = PatchGate.acc xp b' r s := by
  unfold PatchGate.acc
  simp only [T_slab B xp b b' hB]

end Slab

/-- The kernel's overlap-add at padded position (r, s) is the specification's, of the padded block. -/
theorem accK_apply (B : FVec Ideal S12x258x258 .f32) (b : Fin 8) (r s : Fin 258) :
    accK B (ix2 r s) = PatchGate.acc (slab B) b r s := by
  have e00 := laid_apply (by omega : 0 ≤ 2) (by omega : 0 ≤ 2) rows0_at cols0_at (w00 B) (slab B) b
    (fun u v => w_apply B b 0 0 _ _ slices_S12x258x258_o0_0_0_S12x256x256 u v) r s
  have e01 := laid_apply (by omega : 0 ≤ 2) (by omega : 1 ≤ 2) rows0_at cols1_at (w01 B) (slab B) b
    (fun u v => w_apply B b 0 1 _ _ slices_S12x258x258_o0_0_1_S12x256x256 u v) r s
  have e02 := laid_apply (by omega : 0 ≤ 2) (by omega : 2 ≤ 2) rows0_at cols2_at (w02 B) (slab B) b
    (fun u v => w_apply B b 0 2 _ _ slices_S12x258x258_o0_0_2_S12x256x256 u v) r s
  have e10 := laid_apply (by omega : 1 ≤ 2) (by omega : 0 ≤ 2) rows1_at cols0_at (w10 B) (slab B) b
    (fun u v => w_apply B b 1 0 _ _ slices_S12x258x258_o0_1_0_S12x256x256 u v) r s
  have e11 := laid_apply (by omega : 1 ≤ 2) (by omega : 1 ≤ 2) rows1_at cols1_at (w11 B) (slab B) b
    (fun u v => w_apply B b 1 1 _ _ slices_S12x258x258_o0_1_1_S12x256x256 u v) r s
  have e12 := laid_apply (by omega : 1 ≤ 2) (by omega : 2 ≤ 2) rows1_at cols2_at (w12 B) (slab B) b
    (fun u v => w_apply B b 1 2 _ _ slices_S12x258x258_o0_1_2_S12x256x256 u v) r s
  have e20 := laid_apply (by omega : 2 ≤ 2) (by omega : 0 ≤ 2) rows2_at cols0_at (w20 B) (slab B) b
    (fun u v => w_apply B b 2 0 _ _ slices_S12x258x258_o0_2_0_S12x256x256 u v) r s
  have e21 := laid_apply (by omega : 2 ≤ 2) (by omega : 1 ≤ 2) rows2_at cols1_at (w21 B) (slab B) b
    (fun u v => w_apply B b 2 1 _ _ slices_S12x258x258_o0_2_1_S12x256x256 u v) r s
  have e22 := laid_apply (by omega : 2 ≤ 2) (by omega : 2 ≤ 2) rows2_at cols2_at (w22 B) (slab B) b
    (fun u v => w_apply B b 2 2 _ _ slices_S12x258x258_o0_2_2_S12x256x256 u v) r s
  show (((((((((Ideal.ofBits .f32 0x00000000#32 + cols0 (rows0 (w00 B) zK) zK (ix2 r s))
    + cols1 (rows0 (w01 B) zK) zK (ix2 r s)) + cols2 (rows0 (w02 B) zK) zK (ix2 r s))
    + cols0 (rows1 (w10 B) zK) zK (ix2 r s)) + cols1 (rows1 (w11 B) zK) zK (ix2 r s))
    + cols2 (rows1 (w12 B) zK) zK (ix2 r s)) + cols0 (rows2 (w20 B) zK) zK (ix2 r s))
    + cols1 (rows2 (w21 B) zK) zK (ix2 r s)) + cols2 (rows2 (w22 B) zK) zK (ix2 r s)) = _
  rw [e00, e01, e02, e10, e11, e12, e20, e21, e22, Ideal.ofBits_zero_f32]
  rfl

/-- The body's stored value at (0, c, h, w): the input block's entry blended with the gate of the padded block. -/
theorem body_apply (X : FVec Ideal S3x512x512 .f32) (B : FVec Ideal S12x258x258 .f32) (b : Fin 8) (c : Fin 3) (h w : Fin 512) :
    body X B (ix4 (0 : Fin 1) c h w) = PatchGate.blend (X (ix3 c h w)) (PatchGate.gateUp (slab B) b h w) := by
  unfold body
  refine (shapeCast_abc_1abc_apply _ shapeCasts_S3x512x512_S1x3x512x512 0 c h w).trans ?_
  show Ideal.ofBits .f32 0x3F666666#32 * (X (ix3 c h w) * overChannels (logistic (upsample (accK B))) (ix3 c h w))
    + Ideal.ofBits .f32 0x3DCCCCCD#32 * X (ix3 c h w) = _
  rw [overChannels_apply]
  show Ideal.ofBits .f32 0x3F666666#32 * (X (ix3 c h w) * Ideal.logistic (upsample (accK B) (ix2 h w)))
    + Ideal.ofBits .f32 0x3DCCCCCD#32 * X (ix3 c h w) = _
  rw [upsample_apply, accK_apply B b]
  rfl

/-- The gate depends on the padded array only through the batch's 12 × 258 × 258 entries: a block that holds batch
    b' of a padded array gives that batch's gate. -/
theorem gateUp_slab (B : FVec Ideal S12x258x258 .f32) (xp : PatchGate.Padded) (b b' : Fin 8)
    (hB : ∀ (c : Fin 12) (r s : Fin 258), B (ix3 c r s) = xp (ix4 b' c r s)) (h w : Fin 512) :
    PatchGate.gateUp (slab B) b h w = PatchGate.gateUp xp b' h w := by
  unfold PatchGate.gateUp PatchGate.gate
  rw [acc_slab B xp b b' hB]

end Cert.KernelIdeal.BlockValue

end
-- ==== Proof.KernelArray.lean ====
/-
  From the kernel's blocks to its result array.

  The grid has eight points, one per batch.  At point t the pipeline stages batch t of the input (a 1 × 3 × 512 × 512
  block), batch t of the padded array (1 × 12 × 258 × 258) and writes back batch t of the result.  The body's stored
  value at (0, c, h, w) is the blend of the input block's entry with the gate of the padded block, so what point t
  writes back is batch t of the specification of the whole input and the whole padded array.  The eight blocks cover
  the result array, so after the run the result array is the specification.  The padded array the region finds is
  what the host operations before the region computed from the input: reshape, transpose, reshape, pad.
-/
import proofs.«114907_j41266045780687_1_alg».proof.Proof.Gen.KernelIdeal.Value
import proofs.«114907_j41266045780687_1_alg».proof.Proof.KernelBlock
import proofs.«114907_j41266045780687_1_alg».proof.Proof.RefRead
import proofs.«114907_j41266045780687_1_alg».proof.Proof.Spec
import Idealize.ShloMosaic.Lib.Pipeline.Value
import Idealize.ShloMosaic.Lib.StableHlo.Run
import Idealize.ShloMosaic.Lib.ValueLayout

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The printed index maps, decided over the eight grid points: every window's block index is (t, 0, 0, 0). -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The padded array as the region finds it: the host operations before the region applied to the input. -/
theorem padded_eq (c : Dev nD) :
    (V m c main_v3 : S8x12x258x258.Idx → EReal)
      = Cert.ReferenceIdeal.ReadP.val_main_v3 (F := Ideal) (m ((c : Thread nD τ).loc main_arg0)) := by
  dsimp only [V]
  simp only [hostOps0, hostOps0_1, List.flatten_cons, List.flatten_nil, List.append_nil, List.cons_append, List.nil_append]
  after_results
  rfl

/-- Point t's block of the input: entry (0, c, h, w) of the block is entry (t, c, h, w) of the array. -/
theorem emb_in (t : Fin cfg0.N) (c : Fin 3) (h w : Fin 512) :
    ((cfg0.win 0).blk t).view.emb (ix4 (0 : Fin 1) c h w) = ix4 (⟨t.val, t.isLt⟩ : Fin 8) c h w := by
  obtain ⟨e0, e1, e2, e3, -⟩ := index_facts t
  funext a; apply Fin.ext
  match a with
  | ⟨0, _⟩ => show win0_0.index t (0 : Fin 4) * 1 + 1 * 0 = t.val; omega
  | ⟨1, _⟩ => show win0_0.index t (1 : Fin 4) * 3 + 1 * c.val = c.val; omega
  | ⟨2, _⟩ => show win0_0.index t (2 : Fin 4) * 512 + 1 * h.val = h.val; omega
  | ⟨3, _⟩ => show win0_0.index t (3 : Fin 4) * 512 + 1 * w.val = w.val; omega

/-- Point t's block of the padded array: entry (0, c, r, s) of the block is entry (t, c, r, s) of the array. -/
theorem emb_pad (t : Fin cfg0.N) (c : Fin 12) (r s : Fin 258) :
    ((cfg0.win 1).blk t).view.emb (ix4 (0 : Fin 1) c r s) = ix4 (⟨t.val, t.isLt⟩ : Fin 8) c r s := by
  obtain ⟨-, -, -, -, e0, e1, e2, e3, -⟩ := index_facts t
  funext a; apply Fin.ext
  match a with
  | ⟨0, _⟩ => show win0_1.index t (0 : Fin 4) * 1 + 1 * 0 = t.val; omega
  | ⟨1, _⟩ => show win0_1.index t (1 : Fin 4) * 12 + 1 * c.val = c.val; omega
  | ⟨2, _⟩ => show win0_1.index t (2 : Fin 4) * 258 + 1 * r.val = r.val; omega
  | ⟨3, _⟩ => show win0_1.index t (3 : Fin 4) * 258 + 1 * s.val = s.val; omega

/-- Point t's block of the result: entry (0, c, h, w) of the block is entry (t, c, h, w) of the array. -/
theorem emb_out (t : Fin cfg0.N) (c : Fin 3) (h w : Fin 512) :
    ((cfg0.win 2).blk t).view.emb (ix4 (0 : Fin 1) c h w) = ix4 (⟨t.val, t.isLt⟩ : Fin 8) c h w := by
  obtain ⟨-, -, -, -, -, -, -, -, e0, e1, e2, e3⟩ := index_facts t
  funext a; apply Fin.ext
  match a with
  | ⟨0, _⟩ => show win0_2.index t (0 : Fin 4) * 1 + 1 * 0 = t.val; omega
  | ⟨1, _⟩ => show win0_2.index t (1 : Fin 4) * 3 + 1 * c.val = c.val; omega
  | ⟨2, _⟩ => show win0_2.index t (2 : Fin 4) * 512 + 1 * h.val = h.val; omega
  | ⟨3, _⟩ => show win0_2.index t (3 : Fin 4) * 512 + 1 * w.val = w.val; omega

/-- What point t writes back is block t of the specification of the input and the padded array as the region finds them. -/
theorem flushed_eq (c : Dev nD) (t : Fin cfg0.N) :
    (dats m 0 c).flushed 2 t
      = ((cfg0.win 2).blk t).view.read (Elt Ideal) (PatchGate.G (V m c main_arg0) (V m c main_v3)) := by
  rw [flushed2, out_eq, View.canon_unit_zero zero_offsets]
  simp only [View.ld_unit_zero (S := S1x3x512x512) zero_offsets, View.ld_unit_zero (S := S1x12x258x258) zero_offsets]
  funext y
  obtain ⟨u, cc, h, w, rfl⟩ : ∃ (u : Fin 1) (cc : Fin 3) (h w : Fin 512), y = ix4 u cc h w := ⟨y 0, y 1, y 2, y 3, eq_ix4 y⟩
  obtain rfl : u = 0 := Subsingleton.elim _ _
  have hX : shapeCast S3x512x512 (iblk m c 0 t) shapeCasts_S1x3x512x512_S3x512x512 (ix3 cc h w)
      = V m c main_arg0 (ix4 (⟨t.val, t.isLt⟩ : Fin 8) cc h w) := by
    rw [shapeCast_1abc_abc_apply]
    show V m c main_arg0 (((cfg0.win 0).blk t).view.emb (ix4 (0 : Fin 1) cc h w)) = _
    rw [emb_in]
  have hB : ∀ (c' : Fin 12) (r s : Fin 258),
      shapeCast S12x258x258 (iblk m c 1 t) shapeCasts_S1x12x258x258_S12x258x258 (ix3 c' r s)
        = (V m c main_v3 : PatchGate.Padded) (ix4 (⟨t.val, t.isLt⟩ : Fin 8) c' r s) := by
    intro c' r s
    rw [shapeCast_1abc_abc_apply]
    show V m c main_v3 (((cfg0.win 1).blk t).view.emb (ix4 (0 : Fin 1) c' r s)) = _
    rw [emb_pad]
  show body (shapeCast S3x512x512 (iblk m c 0 t) shapeCasts_S1x3x512x512_S3x512x512)
      (shapeCast S12x258x258 (iblk m c 1 t) shapeCasts_S1x12x258x258_S12x258x258) (ix4 (0 : Fin 1) cc h w)
    = PatchGate.G (V m c main_arg0) (V m c main_v3) (((cfg0.win 2).blk t).view.emb (ix4 (0 : Fin 1) cc h w))
  rw [emb_out, PatchGate.G_apply, body_apply _ _ (⟨t.val, t.isLt⟩ : Fin 8), hX,
    gateUp_slab _ (V m c main_v3) _ (⟨t.val, t.isLt⟩ : Fin 8) hB]

/-- An index of the result array is in point t's block iff each coordinate is in the block's range on its axis. -/
theorem mem_blk (t : Fin cfg0.N) (i : S8x3x512x512.Idx) :
    i ∈ ((cfg0.win 2).blk t).view.set ↔ ∀ a : Fin 4, win0_2.index t a * S1x3x512x512.size a ≤ (i a).val
      ∧ (i a).val < win0_2.index t a * S1x3x512x512.size a + S1x3x512x512.size a := by
  show i ∈ ((View.whole main_v4).slice (win0_2.rect t)).set ↔ _
  rw [View.set_slice_whole, Rect.mem_set_unit]
  exact Iff.rfl

/-- Every index of the result array lies in the block of the point of its batch. -/
theorem cover (i : S8x3x512x512.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 512 := (i 2).isLt
  have h3 : (i 3).val < 512 := (i 3).isLt
  refine ⟨⟨(i 0).val, h0⟩, flush0_2 _, ?_⟩
  obtain ⟨-, -, -, -, -, -, -, -, e0, e1, e2, e3⟩ := index_facts ⟨(i 0).val, h0⟩
  have e0' : win0_2.index (⟨(i 0).val, h0⟩ : Fin cfg0.N) (0 : Fin 4) = (i 0).val := e0
  rw [mem_blk]
  intro a
  match a with
  | ⟨0, _⟩ => show win0_2.index (⟨(i 0).val, h0⟩ : Fin cfg0.N) (0 : Fin 4) * 1 ≤ (i 0).val ∧ (i 0).val < win0_2.index (⟨(i 0).val, h0⟩ : Fin cfg0.N) (0 : Fin 4) * 1 + 1; omega
  | ⟨1, _⟩ => show win0_2.index (⟨(i 0).val, h0⟩ : Fin cfg0.N) (1 : Fin 4) * 3 ≤ (i 1).val ∧ (i 1).val < win0_2.index (⟨(i 0).val, h0⟩ : Fin cfg0.N) (1 : Fin 4) * 3 + 3; omega
  | ⟨2, _⟩ => show win0_2.index (⟨(i 0).val, h0⟩ : Fin cfg0.N) (2 : Fin 4) * 512 ≤ (i 2).val ∧ (i 2).val < win0_2.index (⟨(i 0).val, h0⟩ : Fin cfg0.N) (2 : Fin 4) * 512 + 512; omega
  | ⟨3, _⟩ => show win0_2.index (⟨(i 0).val, h0⟩ : Fin cfg0.N) (3 : Fin 4) * 512 ≤ (i 3).val ∧ (i 3).val < win0_2.index (⟨(i 0).val, h0⟩ : Fin cfg0.N) (3 : Fin 4) * 512 + 512; omega

/-- After the run the result array is the specification of the input and of the padded array computed from it. -/
theorem final (c : Dev nD) :
    (dats m 0 c).arrAt 2 cfg0.N
      = PatchGate.G (m ((c : Thread nD τ).loc main_arg0))
          (Cert.ReferenceIdeal.ReadP.val_main_v3 (F := Ideal) (m ((c : Thread nD τ).loc main_arg0))) := by
  have hfin := (dats m 0 c).arrAt_eq_of_cover 2 (PatchGate.G (V m c main_arg0) (V m c main_v3))
    (fun t _ => flushed_eq m c t) cover
  rw [hfin, padded_eq, V_main_arg0]

/-- The kernel's run: every weakly fair execution terminates with the result array at the specification and the
    input unchanged. -/
theorem run : θ_run defs (onTc (τ := τ) (main (F := Ideal))) ⟨m, fun _ => 0, ρ⟩ fun r => ∀ c : Dev nD,
      r.2.mem ((c : Thread nD τ).loc main_v4)
        = PatchGate.G (m ((c : Thread nD τ).loc main_arg0))
            (Cert.ReferenceIdeal.ReadP.val_main_v3 (F := Ideal) (m ((c : Thread nD τ).loc main_arg0)))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefPatch.lean ====
/-
  The reference's nine weighted patches, read at an entry.

  The reference stacks the nine shifted 256 × 256 slices of the padded array along a new axis, takes the softmax over
  the twelve channels — maximum from −∞ (joined once more with −∞, which changes nothing), subtraction,
  exponential, sum, quotient — multiplies by the stack and sums over the channels.  At (b, 3 i + j, u, v) that is the
  softmax-weighted value of the column of the twelve padded entries (b, c, u + i, v + j).
-/
import proofs.«114907_j41266045780687_1_alg».proof.Proof.RefRead
import proofs.«114907_j41266045780687_1_alg».proof.Proof.Spec
import Idealize.ShloMosaic.PureOps.Ideal.Laws
import Idealize.ShloMosaic.PureOps.Reduce
import Idealize.ShloMosaic.Lib.Pipeline.Value

noncomputable section

namespace Cert.ReferenceIdeal.PatchValue

open Cert.ReferenceIdeal Cert.ReferenceIdeal.Gen Cert.ReferenceIdeal.ReadP Idealize.ShloMosaic Idealize.ShloMosaic.ValueIdx

open scoped BigOperators

/-! ## The stack of the nine slices, read at an entry -/

set_option hygiene false in
/-- Piece `k` of the stack, read at (b, c, k, u, v), is that piece at (b, c, 0, u, v): every piece has extent one on
    the joined axis, so the extents before piece `k` add up to `k`.  Then the inserted unit axis and the slice are read,
    and the two composed index maps are the index (b, c, u + i, v + j) coordinate by coordinate. -/
local macro "read_piece" k:num pc:ident bc:ident sl:ident : tactic =>
  `(tactic| (
      refine Eq.trans (concatenate_apply_piece _ _ _ _ $k ?hk S8x12x1x256x256 ($pc (F := Ideal) x0) ?hxk ?hr $k ?hpre
        (ix5 b c (0 : Fin 1) u v) ?hi ?ha) ?rest
      case hk => exact (by decide : ($k : Nat) < 9)
      case hxk => rfl
      case hr => rfl
      case hpre => rfl
      case hi =>
        intro d hd
        match d with
        | ⟨0, _⟩ => rfl
        | ⟨1, _⟩ => rfl
        | ⟨2, _⟩ => exact absurd rfl hd
        | ⟨3, _⟩ => rfl
        | ⟨4, _⟩ => rfl
      case ha => rfl
      case rest =>
        refine Eq.trans ($bc x0 _) (Eq.trans ($sl x0 _) (congrArg (val_main_v3 (F := Ideal) x0) ?_))
        funext a
        apply Fin.ext
        match a with
        | ⟨0, _⟩ => rfl
        | ⟨1, _⟩ => rfl
        | ⟨2, _⟩ => first | rfl | exact Nat.add_comm _ _
        | ⟨3, _⟩ => first | rfl | exact Nat.add_comm _ _))

/-- The stack at (b, c, 3 i + j, u, v) is the padded array at (b, c, u + i, v + j). -/
theorem stack_apply (x0 : (⟨S8x3x512x512, .f32⟩ : BufTy).Contents (Elt Ideal)) (b : Fin 8) (c : Fin 12) (i j : Nat)
    (hi : i ≤ 2) (hj : j ≤ 2) (u v : Fin 256) :
    val_main_v22 (F := Ideal) x0 (ix5 b c (⟨3 * i + j, by omega⟩ : Fin 9) u v)
      = val_main_v3 (F := Ideal) x0 (ix4 b c (⟨u.val + i, by have := u.isLt; omega⟩ : Fin 258)
          (⟨v.val + j, by have := v.isLt; omega⟩ : Fin 258)) := by
  unfold val_main_v22
  interval_cases i <;> interval_cases j
  · read_piece 0 val_main_v13 val_main_v13_apply val_main_v4_apply
  · read_piece 1 val_main_v14 val_main_v14_apply val_main_v5_apply
  · read_piece 2 val_main_v15 val_main_v15_apply val_main_v6_apply
  · read_piece 3 val_main_v16 val_main_v16_apply val_main_v7_apply
  · read_piece 4 val_main_v17 val_main_v17_apply val_main_v8_apply
  · read_piece 5 val_main_v18 val_main_v18_apply val_main_v9_apply
  · read_piece 6 val_main_v19 val_main_v19_apply val_main_v10_apply
  · read_piece 7 val_main_v20 val_main_v20_apply val_main_v11_apply
  · read_piece 8 val_main_v21 val_main_v21_apply val_main_v12_apply

/-! ## The softmax over the channels, read at an entry -/

/-- The column of the stack's twelve channel entries at (b, ·, q, u, v). -/
def stackCol (x0 : (⟨S8x3x512x512, .f32⟩ : BufTy).Contents (Elt Ideal)) (b : Fin 8) (q : Fin 9) (u v : Fin 256) : Fin 12 → EReal :=
  fun c => val_main_v22 (F := Ideal) x0 (ix5 b c q u v)

/-- Dropping the channel axis of the stack's shape leaves the result's shape. -/
theorem reduces_d1 : S8x12x9x256x256.Reduces [1] S8x9x256x256 := by decide

/-- The reduced index (b, q, u, v) with channel `k` put back is (b, k, q, u, v). -/
theorem lift_d1 (b : Fin 8) (q : Fin 9) (u v : Fin 256) (k : Fin (S8x12x9x256x256.size 1)) :
    reduces_d1.lift (ix4 b q u v) k = ix5 b (⟨k.val, k.isLt⟩ : Fin 12) q u v := by
  funext d; apply Fin.ext
  fin_cases d <;> rfl

/-- The maximum over the channels, joined once more with −∞, is the column's maximum folded from −∞: the fold starts
    from that same word, so it is already above it. -/
theorem max_apply (x0 : (⟨S8x3x512x512, .f32⟩ : BufTy).Contents (Elt Ideal)) (b : Fin 8) (q : Fin 9) (u v : Fin 256) :
    val_main_v25 (F := Ideal) x0 (ix4 b q u v) = PatchGate.colMax (stackCol x0 b q u v) := by
  have hfold : val_main_v23 (F := Ideal) x0 (ix4 b q u v) = PatchGate.colMax (stackCol x0 b q u v) := by
    unfold val_main_v23
    refine (Host.reduce_eq_fold_single (α := Ideal .f32) (FloatOps.maximumf (F := Ideal) (φ := .f32))
      (val_main_v22 (F := Ideal) x0 : S8x12x9x256x256.Idx → Ideal .f32) _
      reducesTo_S8x12x9x256x256_S8x9x256x256_d1 reduces_d1 h_S_ (ix4 b q u v)).trans ?_
    have hf : (val_main_v22 (F := Ideal) x0 ∘ reduces_d1.lift (ix4 b q u v)) = stackCol x0 b q u v :=
      funext fun k => congrArg (val_main_v22 (F := Ideal) x0) (lift_d1 b q u v k)
    rw [hf]
    rfl
  refine (val_main_v25_apply x0 _).trans ?_
  rw [hfold]
  show max PatchGate.negInf (PatchGate.colMax (stackCol x0 b q u v)) = PatchGate.colMax (stackCol x0 b q u v)
  exact max_eq_right ((Finset.le_fold_max _).mpr (Or.inl le_rfl))

/-- The exponential of the stack less its channel maximum, at (b, c, q, u, v). -/
theorem exp_apply (x0 : (⟨S8x3x512x512, .f32⟩ : BufTy).Contents (Elt Ideal)) (b : Fin 8) (c : Fin 12) (q : Fin 9) (u v : Fin 256) :
    val_main_v29 (F := Ideal) x0 (ix5 b c q u v)
      = Ideal.exp (stackCol x0 b q u v c - PatchGate.colMax (stackCol x0 b q u v)) := by
  have e : idx_main_v26 (idx_main_v27 (ix5 b c q u v)) = ix4 b q u v := by
    funext a; apply Fin.ext
    match a with
    | ⟨0, _⟩ => rfl
    | ⟨1, _⟩ => rfl
    | ⟨2, _⟩ => rfl
    | ⟨3, _⟩ => rfl
  have e27 : val_main_v27 (F := Ideal) x0 (ix5 b c q u v) = PatchGate.colMax (stackCol x0 b q u v) :=
    (val_main_v27_apply x0 _).trans ((val_main_v26_apply x0 _).trans
      ((congrArg (val_main_v25 (F := Ideal) x0) e).trans (max_apply x0 b q u v)))
  refine (val_main_v29_apply x0 _).trans ?_
  show Ideal.exp (val_main_v22 (F := Ideal) x0 (ix5 b c q u v) - val_main_v27 (F := Ideal) x0 (ix5 b c q u v)) = _
  rw [e27]
  rfl

/-- The sum of those exponentials over the channels, at (b, q, u, v): the sum starts from the word of zero. -/
theorem expSum_apply (x0 : (⟨S8x3x512x512, .f32⟩ : BufTy).Contents (Elt Ideal)) (b : Fin 8) (q : Fin 9) (u v : Fin 256) :
    val_main_v30 (F := Ideal) x0 (ix4 b q u v)
      = ∑ c : Fin 12, Ideal.exp (stackCol x0 b q u v c - PatchGate.colMax (stackCol x0 b q u v)) := by
  refine (val_main_v30_apply x0 _).trans ?_
  show Ideal.ofBits .f32 0x00000000#32 + _ = _
  rw [Ideal.ofBits_zero_f32, zero_add]
  refine Finset.sum_congr rfl fun k _ => ?_
  have e : idx_main_v30 (ix4 b q u v) k = ix5 b k q u v := by
    funext a; apply Fin.ext
    match a with
    | ⟨0, _⟩ => rfl
    | ⟨1, _⟩ => rfl
    | ⟨2, _⟩ => rfl
    | ⟨3, _⟩ => rfl
    | ⟨4, _⟩ => rfl
  exact (congrArg (val_main_v29 (F := Ideal) x0) e).trans (exp_apply x0 b k q u v)

/-- The softmax weight at (b, c, q, u, v): the exponential over the sum of the exponentials. -/
theorem weight_apply (x0 : (⟨S8x3x512x512, .f32⟩ : BufTy).Contents (Elt Ideal)) (b : Fin 8) (c : Fin 12) (q : Fin 9) (u v : Fin 256) :
    val_main_v33 (F := Ideal) x0 (ix5 b c q u v)
      = Ideal.div (Ideal.exp (stackCol x0 b q u v c - PatchGate.colMax (stackCol x0 b q u v)))
          (∑ c' : Fin 12, Ideal.exp (stackCol x0 b q u v c' - PatchGate.colMax (stackCol x0 b q u v))) := by
  have e : idx_main_v31 (idx_main_v32 (ix5 b c q u v)) = ix4 b q u v := by
    funext a; apply Fin.ext
    match a with
    | ⟨0, _⟩ => rfl
    | ⟨1, _⟩ => rfl
    | ⟨2, _⟩ => rfl
    | ⟨3, _⟩ => rfl
  have e32 : val_main_v32 (F := Ideal) x0 (ix5 b c q u v)
      = ∑ c' : Fin 12, Ideal.exp (stackCol x0 b q u v c' - PatchGate.colMax (stackCol x0 b q u v)) :=
    (val_main_v32_apply x0 _).trans ((val_main_v31_apply x0 _).trans
      ((congrArg (val_main_v30 (F := Ideal) x0) e).trans (expSum_apply x0 b q u v)))
  refine (val_main_v33_apply x0 _).trans ?_
  show Ideal.div (val_main_v29 (F := Ideal) x0 (ix5 b c q u v)) (val_main_v32 (F := Ideal) x0 (ix5 b c q u v)) = _
  rw [e32, exp_apply]

/-- The weighted sum over the channels at (b, q, u, v) is the softmax-weighted value of the stack's column there. -/
theorem weighted_col (x0 : (⟨S8x3x512x512, .f32⟩ : BufTy).Contents (Elt Ideal)) (b : Fin 8) (q : Fin 9) (u v : Fin 256) :
    val_main_v35 (F := Ideal) x0 (ix4 b q u v) = PatchGate.wsm (stackCol x0 b q u v) := by
  refine (val_main_v35_apply x0 _).trans ?_
  show Ideal.ofBits .f32 0x00000000#32 + _ = _
  rw [Ideal.ofBits_zero_f32, zero_add]
  unfold PatchGate.wsm
  refine Finset.sum_congr rfl fun k _ => ?_
  have e : idx_main_v35 (ix4 b q u v) k = ix5 b k q u v := by
    funext a; apply Fin.ext
    match a with
    | ⟨0, _⟩ => rfl
    | ⟨1, _⟩ => rfl
    | ⟨2, _⟩ => rfl
    | ⟨3, _⟩ => rfl
    | ⟨4, _⟩ => rfl
  rw [e]
  refine (val_main_v34_apply x0 _).trans ?_
  show val_main_v22 (F := Ideal) x0 (ix5 b k q u v) * val_main_v33 (F := Ideal) x0 (ix5 b k q u v) = _
  rw [weight_apply]
  rfl

/-- The reference's weighted sum over the channels at (b, 3 i + j, u, v) is the softmax-weighted value of the padded
    array's column at (b, u + i, v + j). -/
theorem weighted_apply (x0 : (⟨S8x3x512x512, .f32⟩ : BufTy).Contents (Elt Ideal)) (b : Fin 8) (i j : Nat)
    (hi : i ≤ 2) (hj : j ≤ 2) (u v : Fin 256) :
    val_main_v35 (F := Ideal) x0 (ix4 b (⟨3 * i + j, by omega⟩ : Fin 9) u v)
      = PatchGate.W (val_main_v3 (F := Ideal) x0) b i j hi hj u v := by
  refine (weighted_col x0 b _ u v).trans ?_
  unfold PatchGate.W
  exact congrArg PatchGate.wsm (funext fun c => stack_apply x0 b c i j hi hj u v)

end Cert.ReferenceIdeal.PatchValue

end
-- ==== Proof.LibScatterWindow.lean ====
/-
  A host scatter read at an index.

  The host's scatter is a left fold over the update indices in row-major order: each update whose result index lies
  inside the operand replaces the element there by the body applied to that element and the update.  When distinct
  updates land on distinct elements, the result at an element is the body applied once — to the operand's element and
  the one update that lands there — or the operand's element untouched when none does.  For the window scatter of an
  [n, h, w] array of updates into an [n, H, W] operand at a literal start (oi, oj) on the last two axes, update
  (b, u, v) lands on (b, u + oi, v + oj): the result at (b, r, s) is the body of the operand's element and update
  (b, r − oi, s − oj) when (r, s) lies in the window, the operand's element otherwise.
-/
import Idealize.ShloMosaic.PureOps.ShapeOps
import Idealize.ShloMosaic.Lib.ValueIdx

noncomputable section

namespace ScatterWindow

open Idealize.ShloMosaic Idealize.ShloMosaic.ValueIdx

/-! ## A fold of point updates -/

/-- One step of a fold of point updates.  Item `n` names at most one place `g n`: when it names `i`, the value there is
    replaced by the body `f` of that value and the item's value `v n`; when it names none, nothing changes. -/
def updStep {ι κ α : Type} [DecidableEq κ] (g : ι → Option κ) (f : α → α → α) (v : ι → α) (r : κ → α) (n : ι) : κ → α :=
  match g n with
  | some i => fun i' => if i' = i then f (r i) (v n) else r i'
  | none => r

/-- At the place the item names, a step applies the body to the old value and the item's value. -/
theorem updStep_of_eq {ι κ α : Type} [DecidableEq κ] (g : ι → Option κ) (f : α → α → α) (v : ι → α) (r : κ → α)
    {n : ι} {k : κ} (h : g n = some k) : updStep g f v r n k = f (r k) (v n) := by
  unfold updStep; rw [h]; exact if_pos rfl

/-- At a place the item does not name, a step changes nothing. -/
theorem updStep_of_ne {ι κ α : Type} [DecidableEq κ] (g : ι → Option κ) (f : α → α → α) (v : ι → α) (r : κ → α)
    {n : ι} {k : κ} (h : g n ≠ some k) : updStep g f v r n k = r k := by
  unfold updStep
  cases hg : g n with
  | none => rfl
  | some i =>
    have hki : k ≠ i := fun e => h (by rw [hg, e])
    exact if_neg hki

/-- A fold of point updates leaves a place alone when no item of the list names it. -/
theorem foldl_updStep_of_miss {ι κ α : Type} [DecidableEq κ] (g : ι → Option κ) (f : α → α → α) (v : ι → α)
    (l : List ι) (x : κ → α) (k : κ) (h : ∀ n ∈ l, g n ≠ some k) : l.foldl (updStep g f v) x k = x k := by
  induction l generalizing x with
  | nil => rfl
  | cons m l ih =>
    rw [List.foldl_cons, ih _ (fun n hn => h n (List.mem_cons_of_mem _ hn)),
      updStep_of_ne g f v x (h m List.mem_cons_self)]

/-- A fold of point updates over a list without repeats, when distinct items of the list never name the same place `k`:
    if item `n` of the list names `k`, the result at `k` is the body applied ONCE, to the initial value there and that
    item's value. -/
theorem foldl_updStep_of_hit {ι κ α : Type} [DecidableEq κ] (g : ι → Option κ) (f : α → α → α) (v : ι → α)
    (l : List ι) (hl : l.Nodup) (k : κ) (hinj : ∀ n ∈ l, ∀ m ∈ l, g n = some k → g m = some k → n = m)
    (x : κ → α) (n : ι) (hn : n ∈ l) (hg : g n = some k) : l.foldl (updStep g f v) x k = f (x k) (v n) := by
  induction l generalizing x with
  | nil => exact absurd hn List.not_mem_nil
  | cons m l ih =>
    rw [List.foldl_cons]
    have hm : m ∉ l := (List.nodup_cons.1 hl).1
    have hl' : l.Nodup := (List.nodup_cons.1 hl).2
    rcases List.mem_cons.1 hn with hnm | hn'
    · subst hnm
      rw [foldl_updStep_of_miss g f v l _ k ?_, updStep_of_eq g f v x hg]
      intro n' hn' hg'
      have e := hinj n' (List.mem_cons_of_mem _ hn') n List.mem_cons_self hg' hg
      subst e; exact hm hn'
    · have hgm : g m ≠ some k := fun hgm => by
        have e := hinj m List.mem_cons_self n hn hgm hg
        subst e; exact hm hn'
      rw [ih hl' (fun a ha c hc => hinj a (List.mem_cons_of_mem _ ha) c (List.mem_cons_of_mem _ hc)) _ hn',
        updStep_of_ne g f v x hgm]

/-! ## The host's scatter as such a fold -/

/-- The host's scatter is the fold of point updates over the update indices in row-major order, update `n` naming its
    result index when that lies inside the operand. -/
theorem scatter_eq_foldl {s si u : Shape} {α : Type} {w : Nat} (d : ScatterDims s si u) (f : α → α → α) (x : s.Idx → α)
    (idx : IVec si w) (upd : u.Idx → α) :
    Host.scatter d f x idx upd
      = (List.finRange u.numel).foldl
          (updStep (fun n => d.resultIdx? (u.rowMajor.symm n) idx) f (fun n => upd (u.rowMajor.symm n))) x := by
  unfold Host.scatter
  congr 1
  funext r n
  unfold updStep
  dsimp only
  cases d.resultIdx? (u.rowMajor.symm n) idx <;> rfl

/-- A scatter whose updates land on pairwise distinct elements, read at the element update `j` lands on: the body of the
    operand's element and that update. -/
theorem scatter_apply_of_hit {s si u : Shape} {α : Type} {w : Nat} (d : ScatterDims s si u) (f : α → α → α) (x : s.Idx → α)
    (idx : IVec si w) (upd : u.Idx → α) (i : s.Idx)
    (hinj : ∀ j j' : u.Idx, d.resultIdx? j idx = some i → d.resultIdx? j' idx = some i → j = j')
    (j : u.Idx) (hj : d.resultIdx? j idx = some i) : Host.scatter d f x idx upd i = f (x i) (upd j) := by
  rw [scatter_eq_foldl]
  refine (foldl_updStep_of_hit _ f _ _ (List.nodup_finRange _) i ?_ x (u.rowMajor j) (List.mem_finRange _) ?_).trans ?_
  · intro n _ m _ hn hm
    exact u.rowMajor.symm.injective (hinj _ _ hn hm)
  · show d.resultIdx? (u.rowMajor.symm (u.rowMajor j)) idx = some i
    rw [Equiv.symm_apply_apply]; exact hj
  · show f (x i) (upd (u.rowMajor.symm (u.rowMajor j))) = _
    rw [Equiv.symm_apply_apply]

/-- A scatter read at an element no update lands on: the operand's element. -/
theorem scatter_apply_of_miss {s si u : Shape} {α : Type} {w : Nat} (d : ScatterDims s si u) (f : α → α → α) (x : s.Idx → α)
    (idx : IVec si w) (upd : u.Idx → α) (i : s.Idx) (h : ∀ j : u.Idx, d.resultIdx? j idx ≠ some i) :
    Host.scatter d f x idx upd i = x i := by
  rw [scatter_eq_foldl]
  exact foldl_updStep_of_miss _ f _ _ x i (fun n _ => h _)

/-! ## The window scatter's result index -/

/-- A small natural number read back signed off its 32-bit word is itself. -/
theorem toInt_ofNat_small (o : Nat) (h : o ≤ 2) : (BitVec.ofNat 32 o).toInt = (o : Int) := by
  interval_cases o <;> rfl

/-- Two rank-3 indices given by coordinates are equal only when the coordinates are. -/
theorem ix3_inj {n0 n1 n2 : Nat} {a a' : Fin n0} {b b' : Fin n1} {c c' : Fin n2} (h : ix3 a b c = ix3 a' b' c') :
    a = a' ∧ b = b' ∧ c = c' := by
  have e0 := congrFun h ⟨0, (by decide : (0 : Nat) < 3)⟩
  have e1 := congrFun h ⟨1, (by decide : (1 : Nat) < 3)⟩
  have e2 := congrFun h ⟨2, (by decide : (2 : Nat) < 3)⟩
  exact ⟨e0, e1, e2⟩

/-- With the index vector on the scatter indices' one axis, the start's first component (for operand axis 1) is the
    scatter indices' word 0, read signed. -/
theorem start_one (wf : ScatterDims.WF (⟨3, ![8, 258, 258]⟩ : Shape) (⟨1, ![2]⟩ : Shape) (⟨3, ![8, 256, 256]⟩ : Shape) [0, 1, 2] [] [1, 2] 0)
    (j : (⟨3, ![8, 256, 256]⟩ : Shape).Idx) (idx : IVec (⟨1, ![2]⟩ : Shape) 32) :
    (⟨[0, 1, 2], [], [1, 2], 0, wf⟩ : ScatterDims (⟨3, ![8, 258, 258]⟩ : Shape) (⟨1, ![2]⟩ : Shape) (⟨3, ![8, 256, 256]⟩ : Shape)).start j idx 1
      = (idx (ix1 (0 : Fin 2))).toInt := by
  have hm : (1 : Fin (⟨3, ![8, 258, 258]⟩ : Shape).rank) ∈ ([1, 2] : List (Fin (⟨3, ![8, 258, 258]⟩ : Shape).rank)) := by decide
  unfold ScatterDims.start
  rw [dif_pos hm]
  refine congrArg (fun k => (idx k).toInt) ?_
  funext c
  match c with
  | ⟨0, _⟩ => rfl

/-- … and its second component (for operand axis 2) is word 1. -/
theorem start_two (wf : ScatterDims.WF (⟨3, ![8, 258, 258]⟩ : Shape) (⟨1, ![2]⟩ : Shape) (⟨3, ![8, 256, 256]⟩ : Shape) [0, 1, 2] [] [1, 2] 0)
    (j : (⟨3, ![8, 256, 256]⟩ : Shape).Idx) (idx : IVec (⟨1, ![2]⟩ : Shape) 32) :
    (⟨[0, 1, 2], [], [1, 2], 0, wf⟩ : ScatterDims (⟨3, ![8, 258, 258]⟩ : Shape) (⟨1, ![2]⟩ : Shape) (⟨3, ![8, 256, 256]⟩ : Shape)).start j idx 2
      = (idx (ix1 (1 : Fin 2))).toInt := by
  have hm : (2 : Fin (⟨3, ![8, 258, 258]⟩ : Shape).rank) ∈ ([1, 2] : List (Fin (⟨3, ![8, 258, 258]⟩ : Shape).rank)) := by decide
  unfold ScatterDims.start
  rw [dif_pos hm]
  refine congrArg (fun k => (idx k).toInt) ?_
  funext c
  match c with
  | ⟨0, _⟩ => rfl

/-- The window scatter's result index: update (b, u, v) lands on (b, u + oi, v + oj), always inside the operand. -/
theorem resultIdx_window
    (d : ScatterDims (⟨3, ![8, 258, 258]⟩ : Shape) (⟨1, ![2]⟩ : Shape) (⟨3, ![8, 256, 256]⟩ : Shape))
    (hu : d.updateWindowDims = [0, 1, 2]) (hi : d.insertedWindowDims = []) (hs : d.scatterDimsToOperandDims = [1, 2])
    (hv : d.indexVectorDim = 0) (idx : IVec (⟨1, ![2]⟩ : Shape) 32) (oi oj : Nat) (hoi : oi ≤ 2) (hoj : oj ≤ 2)
    (h0 : idx (ix1 (0 : Fin 2)) = BitVec.ofNat 32 oi) (h1 : idx (ix1 (1 : Fin 2)) = BitVec.ofNat 32 oj)
    (b : Fin 8) (u v : Fin 256) :
    d.resultIdx? (ix3 b u v) idx = some (ix3 b ⟨u.val + oi, by omega⟩ ⟨v.val + oj, by omega⟩) := by
  obtain ⟨uw, iw, sd, iv, wf⟩ := d
  dsimp only at hu hi hs hv
  subst hu hi hs hv
  have key : ∀ a : Fin (⟨3, ![8, 258, 258]⟩ : Shape).rank,
      (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
      = (((ix3 b ⟨u.val + oi, by omega⟩ ⟨v.val + oj, by omega⟩ : (⟨3, ![8, 258, 258]⟩ : Shape).Idx) a).val : Int) := by
    intro a
    match a with
    | ⟨0, _⟩ => exact Int.zero_add _
    | ⟨1, _⟩ =>
      have e : (⟨[0, 1, 2], [], [1, 2], 0, wf⟩ : ScatterDims (⟨3, ![8, 258, 258]⟩ : Shape) (⟨1, ![2]⟩ : Shape) (⟨3, ![8, 256, 256]⟩ : Shape)).start (ix3 b u v) idx 1 = (oi : Int) := by
        rw [start_one, h0]; exact toInt_ofNat_small oi hoi
      show (⟨[0, 1, 2], [], [1, 2], 0, wf⟩ : ScatterDims (⟨3, ![8, 258, 258]⟩ : Shape) (⟨1, ![2]⟩ : Shape) (⟨3, ![8, 256, 256]⟩ : Shape)).start (ix3 b u v) idx 1 + (u.val : Int) = ((u.val + oi : Nat) : Int)
      rw [e]; omega
    | ⟨2, _⟩ =>
      have e : (⟨[0, 1, 2], [], [1, 2], 0, wf⟩ : ScatterDims (⟨3, ![8, 258, 258]⟩ : Shape) (⟨1, ![2]⟩ : Shape) (⟨3, ![8, 256, 256]⟩ : Shape)).start (ix3 b u v) idx 2 = (oj : Int) := by
        rw [start_two, h1]; exact toInt_ofNat_small oj hoj
      show (⟨[0, 1, 2], [], [1, 2], 0, wf⟩ : ScatterDims (⟨3, ![8, 258, 258]⟩ : Shape) (⟨1, ![2]⟩ : Shape) (⟨3, ![8, 256, 256]⟩ : Shape)).start (ix3 b u v) idx 2 + (v.val : Int) = ((v.val + oj : Nat) : Int)
      rw [e]; omega
  unfold ScatterDims.resultIdx?
  have hall : ∀ a : Fin (⟨3, ![8, 258, 258]⟩ : Shape).rank,
      0 ≤ (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
      ∧ (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
        < ((⟨3, ![8, 258, 258]⟩ : Shape).size a : Int) := by
    intro a
    rw [key a]
    exact ⟨Int.natCast_nonneg _, Int.ofNat_lt.2 (Fin.isLt _)⟩
  rw [dif_pos hall]
  refine congrArg some ?_
  funext a
  apply Fin.ext
  show ((⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)).toNat = _
  rw [key a]
  exact Int.toNat_natCast _

/-- The scatter of an [8, 256, 256] array of updates into an [8, 258, 258] operand along the last two axes, whole
    update windows, the one start index (oi, oj) read off a two-word index vector: at (b, r, s) inside the window the
    body of the operand's element and update (b, r − oi, s − oj); outside, the operand's element. -/
theorem scatter_window_apply {α : Type}
    (d : ScatterDims (⟨3, ![8, 258, 258]⟩ : Shape) (⟨1, ![2]⟩ : Shape) (⟨3, ![8, 256, 256]⟩ : Shape))
    (hu : d.updateWindowDims = [0, 1, 2]) (hi : d.insertedWindowDims = []) (hs : d.scatterDimsToOperandDims = [1, 2])
    (hv : d.indexVectorDim = 0)
    (f : α → α → α) (x : (⟨3, ![8, 258, 258]⟩ : Shape).Idx → α) (idx : IVec (⟨1, ![2]⟩ : Shape) 32)
    (upd : (⟨3, ![8, 256, 256]⟩ : Shape).Idx → α) (oi oj : Nat) (hoi : oi ≤ 2) (hoj : oj ≤ 2)
    (h0 : idx (ix1 (0 : Fin 2)) = BitVec.ofNat 32 oi) (h1 : idx (ix1 (1 : Fin 2)) = BitVec.ofNat 32 oj)
    (b : Fin 8) (r s : Fin 258) :
    Host.scatter d f x idx upd (ix3 b r s)
      = if h : oi ≤ r.val ∧ r.val < oi + 256 ∧ oj ≤ s.val ∧ s.val < oj + 256 then
          f (x (ix3 b r s)) (upd (ix3 b ⟨r.val - oi, by omega⟩ ⟨s.val - oj, by omega⟩))
        else x (ix3 b r s) := by
  have hres : ∀ (b' : Fin 8) (u v : Fin 256),
      d.resultIdx? (ix3 b' u v) idx = some (ix3 b' ⟨u.val + oi, by omega⟩ ⟨v.val + oj, by omega⟩) :=
    fun b' u v => resultIdx_window d hu hi hs hv idx oi oj hoi hoj h0 h1 b' u v
  by_cases h : oi ≤ r.val ∧ r.val < oi + 256 ∧ oj ≤ s.val ∧ s.val < oj + 256
  · rw [dif_pos h]
    refine scatter_apply_of_hit d f x idx upd (ix3 b r s) ?_
      (ix3 b ⟨r.val - oi, by omega⟩ ⟨s.val - oj, by omega⟩) ?_
    · intro j j' hj hj'
      obtain ⟨b1, u1, v1, rfl⟩ : ∃ (b1 : Fin 8) (u1 v1 : Fin 256), j = ix3 b1 u1 v1 := ⟨j 0, j 1, j 2, eq_ix3 j⟩
      obtain ⟨b2, u2, v2, rfl⟩ : ∃ (b2 : Fin 8) (u2 v2 : Fin 256), j' = ix3 b2 u2 v2 := ⟨j' 0, j' 1, j' 2, eq_ix3 j'⟩
      rw [hres] at hj hj'
      obtain ⟨e0, e1, e2⟩ := ix3_inj ((Option.some.inj hj).trans (Option.some.inj hj').symm)
      have e1' := congrArg Fin.val e1
      have e2' := congrArg Fin.val e2
      have hu : u1 = u2 := Fin.ext (by simpa using e1')
      have hv : v1 = v2 := Fin.ext (by simpa using e2')
      rw [e0, hu, hv]
    · rw [hres]
      refine congrArg some ?_
      have er : (⟨r.val - oi + oi, by omega⟩ : Fin 258) = r := Fin.ext (by show r.val - oi + oi = r.val; omega)
      have es : (⟨s.val - oj + oj, by omega⟩ : Fin 258) = s := Fin.ext (by show s.val - oj + oj = s.val; omega)
      exact congrArg₂ (ix3 b) er es
  · rw [dif_neg h]
    refine scatter_apply_of_miss d f x idx upd _ ?_
    intro j hj
    obtain ⟨b1, u1, v1, rfl⟩ : ∃ (b1 : Fin 8) (u1 v1 : Fin 256), j = ix3 b1 u1 v1 := ⟨j 0, j 1, j 2, eq_ix3 j⟩
    rw [hres] at hj
    obtain ⟨_, e1, e2⟩ := ix3_inj (Option.some.inj hj)
    have e1' : u1.val + oi = r.val := congrArg Fin.val e1
    have e2' : v1.val + oj = s.val := congrArg Fin.val e2
    have hu1 : u1.val < 256 := u1.isLt
    have hv1 : v1.val < 256 := v1.isLt
    exact h (by omega)

end ScatterWindow

end
-- ==== Proof.RefFold.lean ====
/-
  The reference's overlap-add, read at an entry.

  The reference starts from an 8 × 258 × 258 array of zeros and scatters the nine weighted patches into it, one after
  the other, each added at its offset (i, j) on the last two axes: after the step for offset (i, j) the entry at
  (b, r, s) has gained the patch's value at (r − i, s − j) when (r, s) lies in the 256 × 256 window that starts at
  (i, j), and is unchanged otherwise — that is, it has gained the offset's term of the overlap-add.  After the nine
  steps the entry is the overlap-add of the nine terms in the order (0,0), (0,1), …, (2,2).
-/
import proofs.«114907_j41266045780687_1_alg».proof.Proof.RefRead
import proofs.«114907_j41266045780687_1_alg».proof.Proof.RefPatch
import proofs.«114907_j41266045780687_1_alg».proof.Proof.LibScatterWindow
import proofs.«114907_j41266045780687_1_alg».proof.Proof.Spec
import Idealize.ShloMosaic.PureOps.Ideal.Laws
import Idealize.ShloMosaic.Lib.Pipeline.Value

noncomputable section

namespace Cert.ReferenceIdeal.FoldValue

open Cert.ReferenceIdeal Cert.ReferenceIdeal.Gen Cert.ReferenceIdeal.ReadP Idealize.ShloMosaic Idealize.ShloMosaic.ValueIdx

/-! ## One scatter step

The scatter of a 256 × 256 patch per batch at the start (i, j) read off the two-word index vector, with addition as
the body: inside the window the entry gains the patch's entry at (r − i, s − j), outside it is unchanged; when the
patch is the offset's array of weighted values, the entry gains the offset's term. -/

theorem scatter_step (xp : PatchGate.Padded) (i j : Nat) (hi : i ≤ 2) (hj : j ≤ 2)
    (prev : (⟨S8x258x258, .f32⟩ : BufTy).Contents (Elt Ideal)) (idx : (⟨S2, .i32⟩ : BufTy).Contents (Elt Ideal))
    (upd : (⟨S8x256x256, .f32⟩ : BufTy).Contents (Elt Ideal))
    (h0 : idx (ix1 (0 : Fin 2)) = BitVec.ofNat 32 i) (h1 : idx (ix1 (1 : Fin 2)) = BitVec.ofNat 32 j)
    (hu : ∀ (b : Fin 8) (u v : Fin 256), upd (ix3 b u v) = PatchGate.W xp b i j hi hj u v)
    (b : Fin 8) (r s : Fin 258) :
    Host.scatter scatter_S8x258x258_S2_S8x256x256_012_n_12_0 (FloatOps.addf : Ideal .f32 → Ideal .f32 → Ideal .f32) prev idx upd (ix3 b r s)
      = (prev (ix3 b r s) : EReal) + PatchGate.T xp b i j hi hj r s := by
  refine (ScatterWindow.scatter_window_apply scatter_S8x258x258_S2_S8x256x256_012_n_12_0 rfl rfl rfl rfl
    (FloatOps.addf : Ideal .f32 → Ideal .f32 → Ideal .f32) prev idx upd i j hi hj h0 h1 b r s).trans ?_
  unfold PatchGate.T
  by_cases h : i ≤ r.val ∧ r.val < i + 256 ∧ j ≤ s.val ∧ s.val < j + 256
  · rw [dif_pos h, dif_pos h, hu]
    rfl
  · rw [dif_neg h, dif_neg h]
    exact (add_zero _).symm

/-! ## The nine index vectors: the two words of the start (i, j) -/

theorem start_v41 : val_main_v41 (F := Ideal) (ix1 (0 : Fin 2)) = BitVec.ofNat 32 0
    ∧ val_main_v41 (F := Ideal) (ix1 (1 : Fin 2)) = BitVec.ofNat 32 0 := ⟨rfl, rfl⟩

theorem start_v47 : val_main_v47 (F := Ideal) (ix1 (0 : Fin 2)) = BitVec.ofNat 32 0
    ∧ val_main_v47 (F := Ideal) (ix1 (1 : Fin 2)) = BitVec.ofNat 32 1 := ⟨rfl, rfl⟩

theorem start_v53 : val_main_v53 (F := Ideal) (ix1 (0 : Fin 2)) = BitVec.ofNat 32 0
    ∧ val_main_v53 (F := Ideal) (ix1 (1 : Fin 2)) = BitVec.ofNat 32 2 := ⟨rfl, rfl⟩

theorem start_v59 : val_main_v59 (F := Ideal) (ix1 (0 : Fin 2)) = BitVec.ofNat 32 1
    ∧ val_main_v59 (F := Ideal) (ix1 (1 : Fin 2)) = BitVec.ofNat 32 0 := ⟨rfl, rfl⟩

theorem start_v65 : val_main_v65 (F := Ideal) (ix1 (0 : Fin 2)) = BitVec.ofNat 32 1
    ∧ val_main_v65 (F := Ideal) (ix1 (1 : Fin 2)) = BitVec.ofNat 32 1 := ⟨rfl, rfl⟩

theorem start_v71 : val_main_v71 (F := Ideal) (ix1 (0 : Fin 2)) = BitVec.ofNat 32 1
    ∧ val_main_v71 (F := Ideal) (ix1 (1 : Fin 2)) = BitVec.ofNat 32 2 := ⟨rfl, rfl⟩

theorem start_v77 : val_main_v77 (F := Ideal) (ix1 (0 : Fin 2)) = BitVec.ofNat 32 2
    ∧ val_main_v77 (F := Ideal) (ix1 (1 : Fin 2)) = BitVec.ofNat 32 0 := ⟨rfl, rfl⟩

theorem start_v83 : val_main_v83 (F := Ideal) (ix1 (0 : Fin 2)) = BitVec.ofNat 32 2
    ∧ val_main_v83 (F := Ideal) (ix1 (1 : Fin 2)) = BitVec.ofNat 32 1 := ⟨rfl, rfl⟩

theorem start_v89 : val_main_v89 (F := Ideal) (ix1 (0 : Fin 2)) = BitVec.ofNat 32 2
    ∧ val_main_v89 (F := Ideal) (ix1 (1 : Fin 2)) = BitVec.ofNat 32 2 := ⟨rfl, rfl⟩

/-! ## The nine patches: slice k = 3 i + j of the stack of weighted values, flattened to 8 × 256 × 256 -/

theorem patch_v38 (x0 : (⟨S8x3x512x512, .f32⟩ : BufTy).Contents (Elt Ideal)) (b : Fin 8) (u v : Fin 256) :
    val_main_v38 (F := Ideal) x0 (ix3 b u v) = PatchGate.W (val_main_v3 (F := Ideal) x0) b 0 0 (by omega) (by omega) u v := by
  have hb := b.isLt
  have hu := u.isLt
  have hv := v.isLt
  refine (val_main_v38_apply x0 _).trans ((val_main_v37_apply x0 _).trans ?_)
  refine Eq.trans (congrArg (val_main_v35 (F := Ideal) x0) ?_) (PatchValue.weighted_apply x0 b 0 0 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v44 (x0 : (⟨S8x3x512x512, .f32⟩ : BufTy).Contents (Elt Ideal)) (b : Fin 8) (u v : Fin 256) :
    val_main_v44 (F := Ideal) x0 (ix3 b u v) = PatchGate.W (val_main_v3 (F := Ideal) x0) b 0 1 (by omega) (by omega) u v := by
  have hb := b.isLt
  have hu := u.isLt
  have hv := v.isLt
  refine (val_main_v44_apply x0 _).trans ((val_main_v43_apply x0 _).trans ?_)
  refine Eq.trans (congrArg (val_main_v35 (F := Ideal) x0) ?_) (PatchValue.weighted_apply x0 b 0 1 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v50 (x0 : (⟨S8x3x512x512, .f32⟩ : BufTy).Contents (Elt Ideal)) (b : Fin 8) (u v : Fin 256) :
    val_main_v50 (F := Ideal) x0 (ix3 b u v) = PatchGate.W (val_main_v3 (F := Ideal) x0) b 0 2 (by omega) (by omega) u v := by
  have hb := b.isLt
  have hu := u.isLt
  have hv := v.isLt
  refine (val_main_v50_apply x0 _).trans ((val_main_v49_apply x0 _).trans ?_)
  refine Eq.trans (congrArg (val_main_v35 (F := Ideal) x0) ?_) (PatchValue.weighted_apply x0 b 0 2 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v56 (x0 : (⟨S8x3x512x512, .f32⟩ : BufTy).Contents (Elt Ideal)) (b : Fin 8) (u v : Fin 256) :
    val_main_v56 (F := Ideal) x0 (ix3 b u v) = PatchGate.W (val_main_v3 (F := Ideal) x0) b 1 0 (by omega) (by omega) u v := by
  have hb := b.isLt
  have hu := u.isLt
  have hv := v.isLt
  refine (val_main_v56_apply x0 _).trans ((val_main_v55_apply x0 _).trans ?_)
  refine Eq.trans (congrArg (val_main_v35 (F := Ideal) x0) ?_) (PatchValue.weighted_apply x0 b 1 0 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v62 (x0 : (⟨S8x3x512x512, .f32⟩ : BufTy).Contents (Elt Ideal)) (b : Fin 8) (u v : Fin 256) :
    val_main_v62 (F := Ideal) x0 (ix3 b u v) = PatchGate.W (val_main_v3 (F := Ideal) x0) b 1 1 (by omega) (by omega) u v := by
  have hb := b.isLt
  have hu := u.isLt
  have hv := v.isLt
  refine (val_main_v62_apply x0 _).trans ((val_main_v61_apply x0 _).trans ?_)
  refine Eq.trans (congrArg (val_main_v35 (F := Ideal) x0) ?_) (PatchValue.weighted_apply x0 b 1 1 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v68 (x0 : (⟨S8x3x512x512, .f32⟩ : BufTy).Contents (Elt Ideal)) (b : Fin 8) (u v : Fin 256) :
    val_main_v68 (F := Ideal) x0 (ix3 b u v) = PatchGate.W (val_main_v3 (F := Ideal) x0) b 1 2 (by omega) (by omega) u v := by
  have hb := b.isLt
  have hu := u.isLt
  have hv := v.isLt
  refine (val_main_v68_apply x0 _).trans ((val_main_v67_apply x0 _).trans ?_)
  refine Eq.trans (congrArg (val_main_v35 (F := Ideal) x0) ?_) (PatchValue.weighted_apply x0 b 1 2 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v74 (x0 : (⟨S8x3x512x512, .f32⟩ : BufTy).Contents (Elt Ideal)) (b : Fin 8) (u v : Fin 256) :
    val_main_v74 (F := Ideal) x0 (ix3 b u v) = PatchGate.W (val_main_v3 (F := Ideal) x0) b 2 0 (by omega) (by omega) u v := by
  have hb := b.isLt
  have hu := u.isLt
  have hv := v.isLt
  refine (val_main_v74_apply x0 _).trans ((val_main_v73_apply x0 _).trans ?_)
  refine Eq.trans (congrArg (val_main_v35 (F := Ideal) x0) ?_) (PatchValue.weighted_apply x0 b 2 0 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v80 (x0 : (⟨S8x3x512x512, .f32⟩ : BufTy).Contents (Elt Ideal)) (b : Fin 8) (u v : Fin 256) :
    val_main_v80 (F := Ideal) x0 (ix3 b u v) = PatchGate.W (val_main_v3 (F := Ideal) x0) b 2 1 (by omega) (by omega) u v := by
  have hb := b.isLt
  have hu := u.isLt
  have hv := v.isLt
  refine (val_main_v80_apply x0 _).trans ((val_main_v79_apply x0 _).trans ?_)
  refine Eq.trans (congrArg (val_main_v35 (F := Ideal) x0) ?_) (PatchValue.weighted_apply x0 b 2 1 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

theorem patch_v86 (x0 : (⟨S8x3x512x512, .f32⟩ : BufTy).Contents (Elt Ideal)) (b : Fin 8) (u v : Fin 256) :
    val_main_v86 (F := Ideal) x0 (ix3 b u v) = PatchGate.W (val_main_v3 (F := Ideal) x0) b 2 2 (by omega) (by omega) u v := by
  have hb := b.isLt
  have hu := u.isLt
  have hv := v.isLt
  refine (val_main_v86_apply x0 _).trans ((val_main_v85_apply x0 _).trans ?_)
  refine Eq.trans (congrArg (val_main_v35 (F := Ideal) x0) ?_) (PatchValue.weighted_apply x0 b 2 2 (by omega) (by omega) u v)
  funext a
  apply Fin.ext
  match a with
  | ⟨0, _⟩ => show ((b.val * 256 + u.val) * 256 + v.val) / 65536 = b.val; omega
  | ⟨1, _⟩ => rfl
  | ⟨2, _⟩ => show ((b.val * 256 + u.val) * 256 + v.val) / 256 % 256 = u.val; omega
  | ⟨3, _⟩ => show ((b.val * 256 + u.val) * 256 + v.val) % 256 = v.val; omega

/-! ## The nine steps: each accumulator is the previous one plus the offset's term -/

/-- The array of zeros the reference starts from. -/
theorem zeros_v36 (b : Fin 8) (r s : Fin 258) : (val_main_v36 (F := Ideal) (ix3 b r s) : EReal) = 0 := by
  refine (val_main_v36_apply _).trans ?_
  exact Ideal.ofBits_zero_f32

theorem step_v42 (x0 : (⟨S8x3x512x512, .f32⟩ : BufTy).Contents (Elt Ideal)) (b : Fin 8) (r s : Fin 258) :
    val_main_v42 (F := Ideal) x0 (ix3 b r s)
      = (val_main_v36 (F := Ideal) (ix3 b r s) : EReal) + PatchGate.T (val_main_v3 (F := Ideal) x0) b 0 0 (by omega) (by omega) r s :=
  scatter_step (val_main_v3 (F := Ideal) x0) 0 0 (by omega) (by omega) _ _ _ start_v41.1 start_v41.2 (patch_v38 x0) b r s

theorem step_v48 (x0 : (⟨S8x3x512x512, .f32⟩ : BufTy).Contents (Elt Ideal)) (b : Fin 8) (r s : Fin 258) :
    val_main_v48 (F := Ideal) x0 (ix3 b r s)
      = (val_main_v42 (F := Ideal) x0 (ix3 b r s) : EReal) + PatchGate.T (val_main_v3 (F := Ideal) x0) b 0 1 (by omega) (by omega) r s :=
  scatter_step (val_main_v3 (F := Ideal) x0) 0 1 (by omega) (by omega) _ _ _ start_v47.1 start_v47.2 (patch_v44 x0) b r s

theorem step_v54 (x0 : (⟨S8x3x512x512, .f32⟩ : BufTy).Contents (Elt Ideal)) (b : Fin 8) (r s : Fin 258) :
    val_main_v54 (F := Ideal) x0 (ix3 b r s)
      = (val_main_v48 (F := Ideal) x0 (ix3 b r s) : EReal) + PatchGate.T (val_main_v3 (F := Ideal) x0) b 0 2 (by omega) (by omega) r s :=
  scatter_step (val_main_v3 (F := Ideal) x0) 0 2 (by omega) (by omega) _ _ _ start_v53.1 start_v53.2 (patch_v50 x0) b r s

theorem step_v60 (x0 : (⟨S8x3x512x512, .f32⟩ : BufTy).Contents (Elt Ideal)) (b : Fin 8) (r s : Fin 258) :
    val_main_v60 (F := Ideal) x0 (ix3 b r s)
      = (val_main_v54 (F := Ideal) x0 (ix3 b r s) : EReal) + PatchGate.T (val_main_v3 (F := Ideal) x0) b 1 0 (by omega) (by omega) r s :=
  scatter_step (val_main_v3 (F := Ideal) x0) 1 0 (by omega) (by omega) _ _ _ start_v59.1 start_v59.2 (patch_v56 x0) b r s

theorem step_v66 (x0 : (⟨S8x3x512x512, .f32⟩ : BufTy).Contents (Elt Ideal)) (b : Fin 8) (r s : Fin 258) :
    val_main_v66 (F := Ideal) x0 (ix3 b r s)
      = (val_main_v60 (F := Ideal) x0 (ix3 b r s) : EReal) + PatchGate.T (val_main_v3 (F := Ideal) x0) b 1 1 (by omega) (by omega) r s :=
  scatter_step (val_main_v3 (F := Ideal) x0) 1 1 (by omega) (by omega) _ _ _ start_v65.1 start_v65.2 (patch_v62 x0) b r s

theorem step_v72 (x0 : (⟨S8x3x512x512, .f32⟩ : BufTy).Contents (Elt Ideal)) (b : Fin 8) (r s : Fin 258) :
    val_main_v72 (F := Ideal) x0 (ix3 b r s)
      = (val_main_v66 (F := Ideal) x0 (ix3 b r s) : EReal) + PatchGate.T (val_main_v3 (F := Ideal) x0) b 1 2 (by omega) (by omega) r s :=
  scatter_step (val_main_v3 (F := Ideal) x0) 1 2 (by omega) (by omega) _ _ _ start_v71.1 start_v71.2 (patch_v68 x0) b r s

theorem step_v78 (x0 : (⟨S8x3x512x512, .f32⟩ : BufTy).Contents (Elt Ideal)) (b : Fin 8) (r s : Fin 258) :
    val_main_v78 (F := Ideal) x0 (ix3 b r s)
      = (val_main_v72 (F := Ideal) x0 (ix3 b r s) : EReal) + PatchGate.T (val_main_v3 (F := Ideal) x0) b 2 0 (by omega) (by omega) r s :=
  scatter_step (val_main_v3 (F := Ideal) x0) 2 0 (by omega) (by omega) _ _ _ start_v77.1 start_v77.2 (patch_v74 x0) b r s

theorem step_v84 (x0 : (⟨S8x3x512x512, .f32⟩ : BufTy).Contents (Elt Ideal)) (b : Fin 8) (r s : Fin 258) :
    val_main_v84 (F := Ideal) x0 (ix3 b r s)
      = (val_main_v78 (F := Ideal) x0 (ix3 b r s) : EReal) + PatchGate.T (val_main_v3 (F := Ideal) x0) b 2 1 (by omega) (by omega) r s :=
  scatter_step (val_main_v3 (F := Ideal) x0) 2 1 (by omega) (by omega) _ _ _ start_v83.1 start_v83.2 (patch_v80 x0) b r s

theorem step_v90 (x0 : (⟨S8x3x512x512, .f32⟩ : BufTy).Contents (Elt Ideal)) (b : Fin 8) (r s : Fin 258) :
    val_main_v90 (F := Ideal) x0 (ix3 b r s)
      = (val_main_v84 (F := Ideal) x0 (ix3 b r s) : EReal) + PatchGate.T (val_main_v3 (F := Ideal) x0) b 2 2 (by omega) (by omega) r s :=
  scatter_step (val_main_v3 (F := Ideal) x0) 2 2 (by omega) (by omega) _ _ _ start_v89.1 start_v89.2 (patch_v86 x0) b r s

/-- After the nine scatter steps the reference's accumulator at (b, r, s) is the overlap-add of the nine terms. -/
theorem fold_apply (x0 : (⟨S8x3x512x512, .f32⟩ : BufTy).Contents (Elt Ideal)) (b : Fin 8) (r s : Fin 258) :
    val_main_v90 (F := Ideal) x0 (ix3 b r s) = PatchGate.acc (val_main_v3 (F := Ideal) x0) b r s := by
  unfold PatchGate.acc
  rw [step_v90, step_v84, step_v78, step_v72, step_v66, step_v60, step_v54, step_v48, step_v42, zeros_v36]

end Cert.ReferenceIdeal.FoldValue

end
-- ==== Proof.RefGate.lean ====
/-
  The reference's result is the specification.

  From its overlap-add the reference takes the centre 256 × 256 part, repeats every entry in a 2 × 2 cell (two
  broadcasts, each followed by a reshape that merges the new axis), applies 1 / (1 + exp (−·)) — the logistic
  function, spelt out —, repeats the gate over the three channels, multiplies the input by it, scales by the word of
  0.9 and adds the input scaled by the word of 0.1: entry (b, c, h, w) is the blend of the input's entry with the
  gate at (b, h / 2, w / 2).
-/
import proofs.«114907_j41266045780687_1_alg».proof.Proof.RefRead
import proofs.«114907_j41266045780687_1_alg».proof.Proof.RefFold
import proofs.«114907_j41266045780687_1_alg».proof.Proof.Spec
import Idealize.ShloMosaic.PureOps.Ideal.Laws
import Idealize.ShloMosaic.Lib.IdealHost
import Idealize.ShloMosaic.Lib.Pipeline.Value

noncomputable section

namespace Cert.ReferenceIdeal.GateValue

open Cert.ReferenceIdeal Cert.ReferenceIdeal.Gen Cert.ReferenceIdeal.ReadP Idealize.ShloMosaic Idealize.ShloMosaic.ValueIdx

/-- Through the two upsampling steps, the centre slice and the channel broadcast, entry (b, c, h, w) reads the
    overlap-add at (b, h / 2 + 1, w / 2 + 1). -/
theorem upsampled_index (b : Fin 8) (c : Fin 3) (h w : Fin 512) :
    idx_main_v91 (idx_main_v92 (idx_main_v93 (idx_main_v94 (idx_main_v95 (idx_main_v96 (idx_main_v103 (ix4 b c h w)))))))
      = ix3 b (⟨h.val / 2 + 1, by have := h.isLt; omega⟩ : Fin 258) (⟨w.val / 2 + 1, by have := w.isLt; omega⟩ : Fin 258) := by
  have hb := b.isLt; have hh := h.isLt; have hw := w.isLt
  funext a; apply Fin.ext
  match a with
  | ⟨0, _⟩ => dsimp only [idx_main_v91, idx_main_v92, idx_main_v93, idx_main_v94, idx_main_v95, idx_main_v96, idx_main_v103, ix4, ix3]; omega
  | ⟨1, _⟩ => dsimp only [idx_main_v91, idx_main_v92, idx_main_v93, idx_main_v94, idx_main_v95, idx_main_v96, idx_main_v103, ix4, ix3]; omega
  | ⟨2, _⟩ => dsimp only [idx_main_v91, idx_main_v92, idx_main_v93, idx_main_v94, idx_main_v95, idx_main_v96, idx_main_v103, ix4, ix3]; omega

/-- The reference's result is the specification of the input and the padded array. -/
theorem result_eq (x0 : (⟨S8x3x512x512, .f32⟩ : BufTy).Contents (Elt Ideal)) :
    val_main_v109 (F := Ideal) x0 = PatchGate.G x0 (val_main_v3 (F := Ideal) x0) := by
  funext i
  obtain ⟨b, c, h, w, rfl⟩ : ∃ (b : Fin 8) (c : Fin 3) (h w : Fin 512), i = ix4 b c h w := ⟨i 0, i 1, i 2, i 3, eq_ix4 i⟩
  rw [PatchGate.G_apply]
  rw [val_main_v109_apply, val_main_v106_apply, val_main_v108_apply, val_main_v104_apply, val_main_v105_apply,
    val_main_v107_apply, val_main_cst_24_apply, val_main_cst_25_apply, val_main_v103_apply, val_main_v102_apply,
    val_main_v101_apply, val_main_cst_23_apply, val_main_v100_apply, val_main_v99_apply, val_main_cst_22_apply,
    val_main_v98_apply, val_main_v97_apply, val_main_v96_apply, val_main_v95_apply, val_main_v94_apply,
    val_main_v93_apply, val_main_v92_apply, val_main_v91_apply, upsampled_index, Cert.ReferenceIdeal.FoldValue.fold_apply]
  show Ideal.ofBits .f32 0x3F666666#32 * (x0 (ix4 b c h w) * Ideal.div (Ideal.ofBits .f32 0x3F800000#32)
      (Ideal.ofBits .f32 0x3F800000#32 + Ideal.exp (-(PatchGate.acc (val_main_v3 (F := Ideal) x0) b ⟨h.val / 2 + 1, _⟩ ⟨w.val / 2 + 1, _⟩))))
      + Ideal.ofBits .f32 0x3DCCCCCD#32 * x0 (ix4 b c h w) = _
  rw [Ideal.ofBits_one_f32]
  rfl

end Cert.ReferenceIdeal.GateValue

end
-- ==== Proof.lean ====
/-
  The kernel and its reference compute one function of the input, entry by entry, over the extended reals.

  Both programs first rearrange the 8 × 3 × 512 × 512 input into 8 × 12 × 256 × 256 (each 2 × 2 cell of pixels becomes
  four channels) and pad the last two axes with a border of zeros: the same four host operations in both, so the
  padded array is one term and is never opened.  For each of the nine offsets (i, j) of a 3 × 3 window both take the
  256 × 256 array of columns of twelve channel entries at (u + i, v + j), replace each column by its softmax-weighted
  value — Σ_c x_c · exp (x_c − max x) / Σ_c' exp (x_c' − max x) —, lay the array back at offset (i, j) inside
  258 × 258 zeros and add the nine in the same order: the kernel by joining rows and columns of zeros and adding, the
  reference by scatter-adding into a zero array.  Adding a zero changes nothing in the extended reals, and the two
  sums run in the same order, so no algebraic law beyond 0 + a = a and a + 0 = a joins them.  The centre
  256 × 256 part, upsampled twofold and passed through the logistic function — one operation in the kernel,
  1 / (1 + exp (−·)) spelt out in the reference, one function of the extended reals —, gates the input, and both
  return f32(0.9) · (x · gate) + f32(0.1) · x with the same two scale words.  The inputs' finiteness is never used.

  The kernel's side is read off its generated frame run block by block (eight grid points, one batch each) and
  assembled into the whole array; the reference's side is read off its run one operation at a time.
-/
import proofs.«114907_j41266045780687_1_alg».proof.Defs
import proofs.«114907_j41266045780687_1_alg».proof.Proof.Gen.Kernel
import proofs.«114907_j41266045780687_1_alg».proof.Proof.Gen.Kernel.Skeleton
import proofs.«114907_j41266045780687_1_alg».proof.Proof.Gen.Kernel.Launch
import proofs.«114907_j41266045780687_1_alg».proof.Proof.Gen.Kernel.Points
import proofs.«114907_j41266045780687_1_alg».proof.Proof.Gen.Kernel.Frame
import proofs.«114907_j41266045780687_1_alg».proof.Proof.Gen.KernelIdeal
import proofs.«114907_j41266045780687_1_alg».proof.Proof.Gen.KernelIdeal.Skeleton
import proofs.«114907_j41266045780687_1_alg».proof.Proof.Gen.KernelIdeal.Launch
import proofs.«114907_j41266045780687_1_alg».proof.Proof.Gen.KernelIdeal.Points
import proofs.«114907_j41266045780687_1_alg».proof.Proof.Gen.KernelIdeal.Frame
import proofs.«114907_j41266045780687_1_alg».proof.Proof.Gen.ReferenceIdeal
import proofs.«114907_j41266045780687_1_alg».proof.Proof.Gen.Pre_finite_inputs
import proofs.«114907_j41266045780687_1_alg».proof.Proof.Gen.KernelIdeal.Value
import proofs.«114907_j41266045780687_1_alg».proof.Proof.RefRun
import proofs.«114907_j41266045780687_1_alg».proof.Proof.RefRead
import proofs.«114907_j41266045780687_1_alg».proof.Proof.KernelArray
import proofs.«114907_j41266045780687_1_alg».proof.Proof.RefGate
import Idealize.ShloMosaic.Adequacy
import Idealize.ShloMosaic.Init

noncomputable section

namespace Cert.Proof

open Idealize.ShloMosaic Idealize.SL.Sem

/-- The kernel as printed runs to the end without a fault and leaves its input as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From inputs that agree, both programs end with the specification of that input as their result. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v109_eq, Cert.ReferenceIdeal.GateValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
